-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S32x1024x768 : Shape := ⟨3, ![32, 1024, 768]⟩
abbrev S64x768 : Shape := ⟨2, ![64, 768]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel
  bcast_S_S32x1024x768 : S_.BroadcastsInDim S32x1024x768 (![] : Fin 0 → Fin S32x1024x768.rank)
  reducesTo_S32x1024x768_S_d0_1_2 : S32x1024x768.ReducesTo [0, 1, 2] S_
  bcast_S_S64x768 : S_.BroadcastsInDim S64x768 (![] : Fin 0 → Fin S64x768.rank)
  reducesTo_S64x768_S_d0_1 : S64x768.ReducesTo [0, 1] S_

variable [Facts]

def fn {F : FTy → Type} [FloatOps F] (main_arg0 : FVec F S32x512x768 .f32) (main_arg1 : FVec F S32x1024x768 .f32) (main_arg2 : FVec F S64x768 .f32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  let main_v4 : FVec F S32x1024x768 .f32 := Host.absf main_arg1
  let main_cst_0 : FVec F S_ .f32 := constant S_ .f32 0x7F800000#32
  let main_v5 : FVec F S32x1024x768 .f32 := broadcastInDim S32x1024x768 ![] bcast_S_S32x1024x768 main_cst_0
  let main_v6 : IVec S32x1024x768 1 := cmpf .olt main_v4 main_v5
  let main_c_1 : IVec S_ 1 := constantI S_ 1 1#1
  let main_v7 : IVec S_ 1 := (fun x v => Host.reduce IntOp.andi x v reducesTo_S32x1024x768_S_d0_1_2 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  main_v13
-- ==== Kernel.lean ====
abbrev S32x512x768 : Shape := ⟨3, ![32, 512, 768]⟩
abbrev S32x1024x768 : Shape := ⟨3, ![32, 1024, 768]⟩
abbrev S64x768 : Shape := ⟨2, ![64, 768]⟩
abbrev S8x4x1024 : Shape := ⟨3, ![8, 4, 1024]⟩
abbrev S4x512x768 : Shape := ⟨3, ![4, 512, 768]⟩
abbrev S4x1024x768 : Shape := ⟨3, ![4, 1024, 768]⟩
abbrev S1x4x1024 : Shape := ⟨3, ![1, 4, 1024]⟩
abbrev S1x512x768 : Shape := ⟨3, ![1, 512, 768]⟩
abbrev S512x768 : Shape := ⟨2, ![512, 768]⟩
abbrev S1x1024x768 : Shape := ⟨3, ![1, 1024, 768]⟩
abbrev S1024x768 : Shape := ⟨2, ![1024, 768]⟩
abbrev S64x512 : Shape := ⟨2, ![64, 512]⟩
abbrev S64 : Shape := ⟨1, ![64]⟩
abbrev S64x1 : Shape := ⟨2, ![64, 1]⟩
abbrev S64x1024 : Shape := ⟨2, ![64, 1024]⟩
abbrev S1024 : Shape := ⟨1, ![1024]⟩
abbrev S1x1024 : Shape := ⟨2, ![1, 1024]⟩
abbrev S1x1x1024 : Shape := ⟨3, ![1, 1, 1024]⟩
abbrev S32x1024 : Shape := ⟨2, ![32, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32x512x768, .f32⟩
  | .hbm, ⟨1, _⟩ => ⟨S32x1024x768, .f32⟩
  | .hbm, ⟨2, _⟩ => ⟨S64x768, .f32⟩
  | .hbm, ⟨3, _⟩ => ⟨S8x4x1024, .f32⟩
  | .hbm, ⟨4, _⟩ => ⟨S32x1024, .f32⟩
  | .local _ .vmem, ⟨0, _⟩ => ⟨S4x512x768, .f32⟩
  | .local _ .vmem, ⟨1, _⟩ => ⟨S4x512x768, .f32⟩
  | .local _ .vmem, ⟨2, _⟩ => ⟨S4x1024x768, .f32⟩
  | .local _ .vmem, ⟨3, _⟩ => ⟨S4x1024x768, .f32⟩
  | .local _ .vmem, ⟨4, _⟩ => ⟨S64x768, .f32⟩
  | .local _ .vmem, ⟨5, _⟩ => ⟨S1x4x1024, .f32⟩
  | .local _ .vmem, ⟨6, _⟩ => ⟨S1x4x1024, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64x768_S64x768_0_0 : ∀ a, (![0, 0] : Fin 2 → Nat) a + S64x768.size a ≤ S64x768.size a
  h_S64x768 : 0 < S64x768.numel
  inb_S4x512x768_S1x512x768_0_0_0 : ∀ a, (![0, 0, 0] : Fin 3 → Nat) a + S1x512x768.size a ≤ S4x512x768.size a
  h_S1x512x768 : 0 < S1x512x768.numel
  shapeCasts_S1x512x768_S512x768 : S1x512x768.ShapeCasts S512x768
  inb_S4x1024x768_S1x1024x768_0_0_0 : ∀ a, (![0, 0, 0] : Fin 3 → Nat) a + S1x1024x768.size a ≤ S4x1024x768.size a
  h_S1x1024x768 : 0 < S1x1024x768.numel
  shapeCasts_S1x1024x768_S1024x768 : S1x1024x768.ShapeCasts S1024x768
  reduces_S64x512_S64 : S64x512.Reduces [1] S64
  shapeCasts_S64_S64x1 : S64.ShapeCasts S64x1
  broadcasts_S64x1_S64x1024 : S64x1.Broadcasts S64x1024
  reduces_S64x1024_S1024 : S64x1024.Reduces [0] S1024
  shapeCasts_S1024_S1x1024 : S1024.ShapeCasts S1x1024
  broadcasts_S1x1024_S64x1024 : S1x1024.Broadcasts S64x1024
  inb_S1x4x1024_S1x1x1024_0_0_0 : ∀ a, (![0, 0, 0] : Fin 3 → Nat) a + S1x1x1024.size a ≤ S1x4x1024.size a
  h_S1x1x1024 : 0 < S1x1x1024.numel
  shapeCasts_S1x1x1024_S1024 : S1x1x1024.ShapeCasts S1024
  shapeCasts_S1024_S1x1x1024 : S1024.ShapeCasts S1x1x1024
  inb_S4x512x768_S1x512x768_1_0_0 : ∀ a, (![1, 0, 0] : Fin 3 → Nat) a + S1x512x768.size a ≤ S4x512x768.size a
  inb_S4x1024x768_S1x1024x768_1_0_0 : ∀ a, (![1, 0, 0] : Fin 3 → Nat) a + S1x1024x768.size a ≤ S4x1024x768.size a
  inb_S1x4x1024_S1x1x1024_0_1_0 : ∀ a, (![0, 1, 0] : Fin 3 → Nat) a + S1x1x1024.size a ≤ S1x4x1024.size a
  inb_S4x512x768_S1x512x768_2_0_0 : ∀ a, (![2, 0, 0] : Fin 3 → Nat) a + S1x512x768.size a ≤ S4x512x768.size a
  inb_S4x1024x768_S1x1024x768_2_0_0 : ∀ a, (![2, 0, 0] : Fin 3 → Nat) a + S1x1024x768.size a ≤ S4x1024x768.size a
  inb_S1x4x1024_S1x1x1024_0_2_0 : ∀ a, (![0, 2, 0] : Fin 3 → Nat) a + S1x1x1024.size a ≤ S1x4x1024.size a
  inb_S4x512x768_S1x512x768_3_0_0 : ∀ a, (![3, 0, 0] : Fin 3 → Nat) a + S1x512x768.size a ≤ S4x512x768.size a
  inb_S4x1024x768_S1x1024x768_3_0_0 : ∀ a, (![3, 0, 0] : Fin 3 → Nat) a + S1x1024x768.size a ≤ S4x1024x768.size a
  inb_S1x4x1024_S1x1x1024_0_3_0 : ∀ a, (![0, 3, 0] : Fin 3 → Nat) a + S1x1x1024.size a ≤ S1x4x1024.size a
  shapeCasts_S8x4x1024_S32x1024 : S8x4x1024.ShapeCasts S32x1024
  dot_S64x768_S512x768_S64x512_1_1_0_0_n_n_wf : DotDims.WF S64x768 S512x768 S64x512 [1] [1] [0] [0] [] []
  dot_S64x512_S512x768_S64x768_1_0_0_1_n_n_wf : DotDims.WF S64x512 S512x768 S64x768 [1] [0] [0] [1] [] []
  dot_S64x768_S1024x768_S64x1024_1_1_0_0_n_n_wf : DotDims.WF S64x768 S1024x768 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x768.size a ≤ S32x512x768.size a
  hwx0_0 : ∀ i : grid0.Coords, EltTy.bits .f32 = 32 ∨ (Rect.block (s := S32x512x768) S4x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x768.size a ≤ S32x1024x768.size a
  hwx0_1 : ∀ i : grid0.Coords, EltTy.bits .f32 = 32 ∨ (Rect.block (s := S32x1024x768) S4x1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x768.size a ≤ S64x768.size a
  hwx0_2 : ∀ i : grid0.Coords, EltTy.bits .f32 = 32 ∨ (Rect.block (s := S64x768) S64x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x1024.size a ≤ S8x4x1024.size a
  hwx0_3 : ∀ i : grid0.Coords, EltTy.bits .f32 = 32 ∨ (Rect.block (s := S8x4x1024) S1x4x1024.size (cc0_transform_3 i) (hinb0_3 i)).WholeWords (EltTy.packing .f32)

variable [Facts₀]

def dot_S64x768_S512x768_S64x512_1_1_0_0_n_n : DotDims S64x768 S512x768 S64x512 where
  lhsContracting := [1]
  rhsContracting := [1]
  lhsNonContracting := [0]
  rhsNonContracting := [0]
  lhsBatch := []
  rhsBatch := []
  wf := dot_S64x768_S512x768_S64x512_1_1_0_0_n_n_wf
def dot_S64x512_S512x768_S64x768_1_0_0_1_n_n : DotDims S64x512 S512x768 S64x768 where
  lhsContracting := [1]
  rhsContracting := [0]
  lhsNonContracting := [0]
  rhsNonContracting := [1]
  lhsBatch := []
  rhsBatch := []
  wf := dot_S64x512_S512x768_S64x768_1_0_0_1_n_n_wf
def dot_S64x768_S1024x768_S64x1024_1_1_0_0_n_n : DotDims S64x768 S1024x768 S64x1024 where
  lhsContracting := [1]
  rhsContracting := [1]
  lhsNonContracting := [0]
  rhsNonContracting := [0]
  lhsBatch := []
  rhsBatch := []
  wf := dot_S64x768_S1024x768_S64x1024_1_1_0_0_n_n_wf

abbrev win0_0 : Pipeline.Window sig grid0 :=
  Pipeline.Window.ofSpec (Memref.whole main_arg0) S4x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x4x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x768 : Shape := ⟨3, ![32, 512, 768]⟩
abbrev S32x1024x768 : Shape := ⟨3, ![32, 1024, 768]⟩
abbrev S64x768 : Shape := ⟨2, ![64, 768]⟩
abbrev S1x64x768 : Shape := ⟨3, ![1, 64, 768]⟩
abbrev S32x64x768 : Shape := ⟨3, ![32, 64, 768]⟩
abbrev S32x768x512 : Shape := ⟨3, ![32, 768, 512]⟩
abbrev S32x64x512 : Shape := ⟨3, ![32, 64, 512]⟩
abbrev S_ : Shape := ⟨0, ![]⟩
abbrev S32x64 : Shape := ⟨2, ![32, 64]⟩
abbrev S32x64x1 : Shape := ⟨3, ![32, 64, 1]⟩
abbrev S32x768x64 : Shape := ⟨3, ![32, 768, 64]⟩
abbrev S32x1024x64 : Shape := ⟨3, ![32, 1024, 64]⟩
abbrev S32x1024 : Shape := ⟨2, ![32, 1024]⟩
abbrev S32x1024x1 : Shape := ⟨3, ![32, 1024, 1]⟩

abbrev nBuf : Space → Nat
  | .hbm => 42
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S32x1024x768, .f32⟩
  | .hbm, ⟨2, _⟩ => ⟨S64x768, .f32⟩
  | .hbm, ⟨3, _⟩ => ⟨S1x64x768, .f32⟩
  | .hbm, ⟨4, _⟩ => ⟨S32x64x768, .f32⟩
  | .hbm, ⟨5, _⟩ => ⟨S32x768x512, .f32⟩
  | .hbm, ⟨6, _⟩ => ⟨S32x64x512, .f32⟩
  | .hbm, ⟨7, _⟩ => ⟨S_, .f32⟩
  | .hbm, ⟨8, _⟩ => ⟨S32x64, .f32⟩
  | .hbm, ⟨9, _⟩ => ⟨S_, .f32⟩
  | .hbm, ⟨10, _⟩ => ⟨S32x64, .f32⟩
  | .hbm, ⟨11, _⟩ => ⟨S32x64, .f32⟩
  | .hbm, ⟨12, _⟩ => ⟨S32x64x1, .f32⟩
  | .hbm, ⟨13, _⟩ => ⟨S32x64x512, .f32⟩
  | .hbm, ⟨14, _⟩ => ⟨S32x64x512, .f32⟩
  | .hbm, ⟨15, _⟩ => ⟨S32x64x512, .f32⟩
  | .hbm, ⟨16, _⟩ => ⟨S_, .f32⟩
  | .hbm, ⟨17, _⟩ => ⟨S32x64, .f32⟩
  | .hbm, ⟨18, _⟩ => ⟨S32x64x1, .f32⟩
  | .hbm, ⟨19, _⟩ => ⟨S32x64x512, .f32⟩
  | .hbm, ⟨20, _⟩ => ⟨S32x64x512, .f32⟩
  | .hbm, ⟨21, _⟩ => ⟨S32x64x768, .f32⟩
  | .hbm, ⟨22, _⟩ => ⟨S32x768x64, .f32⟩
  | .hbm, ⟨23, _⟩ => ⟨S32x1024x64, .f32⟩
  | .hbm, ⟨24, _⟩ => ⟨S_, .f32⟩
  | .hbm, ⟨25, _⟩ => ⟨S32x1024, .f32⟩
  | .hbm, ⟨26, _⟩ => ⟨S_, .f32⟩
  | .hbm, ⟨27, _⟩ => ⟨S32x1024, .f32⟩
  | .hbm, ⟨28, _⟩ => ⟨S32x1024, .f32⟩
  | .hbm, ⟨29, _⟩ => ⟨S32x1024x1, .f32⟩
  | .hbm, ⟨30, _⟩ => ⟨S32x1024x64, .f32⟩
  | .hbm, ⟨31, _⟩ => ⟨S32x1024x64, .f32⟩
  | .hbm, ⟨32, _⟩ => ⟨S32x1024x64, .f32⟩
  | .hbm, ⟨33, _⟩ => ⟨S_, .f32⟩
  | .hbm, ⟨34, _⟩ => ⟨S32x1024, .f32⟩
  | .hbm, ⟨35, _⟩ => ⟨S32x1024x1, .f32⟩
  | .hbm, ⟨36, _⟩ => ⟨S32x1024x64, .f32⟩
  | .hbm, ⟨37, _⟩ => ⟨S32x1024x64, .f32⟩
  | .hbm, ⟨38, _⟩ => ⟨S32x1024x768, .f32⟩
  | .hbm, ⟨39, _⟩ => ⟨S32x1024x768, .f32⟩
  | .hbm, ⟨40, _⟩ => ⟨S_, .f32⟩
  | .hbm, ⟨41, _⟩ => ⟨S32x1024, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  bcast_S64x768_S1x64x768_1_2 : S64x768.BroadcastsInDim S1x64x768 (![1, 2] : Fin 2 → Fin S1x64x768.rank)
  bcast_S1x64x768_S32x64x768_0_1_2 : S1x64x768.BroadcastsInDim S32x64x768 (![0, 1, 2] : Fin 3 → Fin S32x64x768.rank)
  transposes_S32x512x768_S32x768x512_0_2_1 : S32x512x768.Transposes [0, 2, 1] S32x768x512
  reducesTo_S32x64x512_S32x64_d2 : S32x64x512.ReducesTo [2] S32x64
  h_S_ : 0 < S_.numel
  bcast_S_S32x64 : S_.BroadcastsInDim S32x64 (![] : Fin 0 → Fin S32x64.rank)
  bcast_S32x64_S32x64x1_0_1 : S32x64.BroadcastsInDim S32x64x1 (![0, 1] : Fin 2 → Fin S32x64x1.rank)
  bcast_S32x64x1_S32x64x512_0_1_2 : S32x64x1.BroadcastsInDim S32x64x512 (![0, 1, 2] : Fin 3 → Fin S32x64x512.rank)
  transposes_S32x64x768_S32x768x64_0_2_1 : S32x64x768.Transposes [0, 2, 1] S32x768x64
  reducesTo_S32x1024x64_S32x1024_d2 : S32x1024x64.ReducesTo [2] S32x1024
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x64_0_1_2 : S32x1024x1.BroadcastsInDim S32x1024x64 (![0, 1, 2] : Fin 3 → Fin S32x1024x64.rank)
  reducesTo_S32x1024x768_S32x1024_d2 : S32x1024x768.ReducesTo [2] S32x1024
  dot_S32x64x768_S32x768x512_S32x64x512_2_1_1_2_0_0_wf : DotDims.WF S32x64x768 S32x768x512 S32x64x512 [2] [1] [1] [2] [0] [0]
  dot_S32x64x512_S32x512x768_S32x64x768_2_1_1_2_0_0_wf : DotDims.WF S32x64x512 S32x512x768 S32x64x768 [2] [1] [1] [2] [0] [0]
  dot_S32x1024x768_S32x768x64_S32x1024x64_2_1_1_2_0_0_wf : DotDims.WF S32x1024x768 S32x768x64 S32x1024x64 [2] [1] [1] [2] [0] [0]
  dot_S32x1024x64_S32x64x768_S32x1024x768_2_1_1_2_0_0_wf : DotDims.WF S32x1024x64 S32x64x768 S32x1024x768 [2] [1] [1] [2] [0] [0]

variable [Facts₀]

def dot_S32x64x768_S32x768x512_S32x64x512_2_1_1_2_0_0 : DotDims S32x64x768 S32x768x512 S32x64x512 where
  lhsContracting := [2]
  rhsContracting := [1]
  lhsNonContracting := [1]
  rhsNonContracting := [2]
  lhsBatch := [0]
  rhsBatch := [0]
  wf := dot_S32x64x768_S32x768x512_S32x64x512_2_1_1_2_0_0_wf
def dot_S32x64x512_S32x512x768_S32x64x768_2_1_1_2_0_0 : DotDims S32x64x512 S32x512x768 S32x64x768 where
  lhsContracting := [2]
  rhsContracting := [1]
  lhsNonContracting := [1]
  rhsNonContracting := [2]
  lhsBatch := [0]
  rhsBatch := [0]
  wf := dot_S32x64x512_S32x512x768_S32x64x768_2_1_1_2_0_0_wf
def dot_S32x1024x768_S32x768x64_S32x1024x64_2_1_1_2_0_0 : DotDims S32x1024x768 S32x768x64 S32x1024x64 where
  lhsContracting := [2]
  rhsContracting := [1]
  lhsNonContracting := [1]
  rhsNonContracting := [2]
  lhsBatch := [0]
  rhsBatch := [0]
  wf := dot_S32x1024x768_S32x768x64_S32x1024x64_2_1_1_2_0_0_wf
def dot_S32x1024x64_S32x64x768_S32x1024x768_2_1_1_2_0_0 : DotDims S32x1024x64 S32x64x768 S32x1024x768 where
  lhsContracting := [2]
  rhsContracting := [1]
  lhsNonContracting := [1]
  rhsNonContracting := [2]
  lhsBatch := [0]
  rhsBatch := [0]
  wf := dot_S32x1024x64_S32x64x768_S32x1024x768_2_1_1_2_0_0_wf

class Facts : Prop extends Facts₀ where

variable [Facts]
-- ==== Proof.PolyReal.lean ====
/-
  The real-number mathematics of poly-encoder retrieval scoring, over finite index ranges.

  For poly codes `w : M × D`, context token states `ctx : S × D` and ONE candidate `cand : D`:
  first-stage logits `L m s = Σ_d w m d · ctx s d`; the context embedding of code `m` is the softmax (over `s`)
  weighted mean of the token states; the candidate's logit against code `m` is its dot product with that embedding;
  the score is the dot product of the candidate with the softmax (over `m`) weighted mean of the embeddings.

  Two arrangements are compared. The DEFERRED one exponentiates the first-stage logits with no shift, multiplies
  through, and divides by the exponential sum afterwards, and it never forms the candidate-conditioned mean: since
  `Σ_d (Σ_m p m · E m d) · cand d = Σ_m p m · (Σ_d cand d · E m d)`, the score is the softmax-weighted mean of the
  second-stage logits themselves. The DIRECT one normalises each softmax (shifted by an arbitrary real, as a
  max-subtracting softmax does) before each product. A softmax does not depend on the shift, so every shift below
  is an arbitrary real number: nothing is assumed of it being a maximum.
-/
import Idealize.ShloMosaic.PureOps.Ideal

noncomputable section

namespace Cert.Proof.PolyReal

open Finset

variable {nM nS nD : ℕ}

/-- First-stage logit of poly code `m` against context token `s`. -/
def logit (w : Fin nM → Fin nD → ℝ) (ctx : Fin nS → Fin nD → ℝ) (m : Fin nM) (s : Fin nS) : ℝ :=
  ∑ d, w m d * ctx s d

/-- The sum over tokens of the exponentials of code `m`'s logits. -/
def expSum (w : Fin nM → Fin nD → ℝ) (ctx : Fin nS → Fin nD → ℝ) (m : Fin nM) : ℝ :=
  ∑ s, Real.exp (logit w ctx m s)

/-- The unnormalised embedding of code `m`: the token states weighted by the exponentials of its logits. -/
def embU (w : Fin nM → Fin nD → ℝ) (ctx : Fin nS → Fin nD → ℝ) (m : Fin nM) (d : Fin nD) : ℝ :=
  ∑ s, Real.exp (logit w ctx m s) * ctx s d

/-- The deferred arrangement's second-stage logit: the unnormalised embedding against the candidate, divided by the
    exponential sum afterwards. -/
def kLt (w : Fin nM → Fin nD → ℝ) (ctx : Fin nS → Fin nD → ℝ) (cand : Fin nD → ℝ) (m : Fin nM) : ℝ :=
  (∑ d, embU w ctx m d * cand d) / expSum w ctx m

/-- The deferred arrangement's score: the softmax (shifted by `c`) weighted mean of the second-stage logits. -/
def kOut (w : Fin nM → Fin nD → ℝ) (ctx : Fin nS → Fin nD → ℝ) (cand : Fin nD → ℝ) (c : ℝ) : ℝ :=
  (∑ m, Real.exp (kLt w ctx cand m - c) * kLt w ctx cand m) / (∑ m, Real.exp (kLt w ctx cand m - c))

/-- The direct arrangement's first softmax, code `m`'s weights over the tokens, shifted by `c1 m`. -/
def rP (w : Fin nM → Fin nD → ℝ) (ctx : Fin nS → Fin nD → ℝ) (c1 : Fin nM → ℝ) (m : Fin nM) (s : Fin nS) : ℝ :=
  Real.exp (logit w ctx m s - c1 m) / ∑ s', Real.exp (logit w ctx m s' - c1 m)

/-- The embedding of code `m`: the softmax-weighted mean of the token states. -/
def rEmb (w : Fin nM → Fin nD → ℝ) (ctx : Fin nS → Fin nD → ℝ) (c1 : Fin nM → ℝ) (m : Fin nM) (d : Fin nD) : ℝ :=
  ∑ s, rP w ctx c1 m s * ctx s d

/-- The candidate's logit against code `m`. -/
def rL2 (w : Fin nM → Fin nD → ℝ) (ctx : Fin nS → Fin nD → ℝ) (c1 : Fin nM → ℝ) (cand : Fin nD → ℝ) (m : Fin nM) : ℝ :=
  ∑ d, cand d * rEmb w ctx c1 m d

/-- The direct arrangement's score: the candidate against the softmax (shifted by `c2`) weighted mean of the embeddings. -/
def rOut (w : Fin nM → Fin nD → ℝ) (ctx : Fin nS → Fin nD → ℝ) (c1 : Fin nM → ℝ) (cand : Fin nD → ℝ) (c2 : ℝ) : ℝ :=
  ∑ d, (∑ m, (Real.exp (rL2 w ctx c1 cand m - c2) / ∑ m', Real.exp (rL2 w ctx c1 cand m' - c2)) * rEmb w ctx c1 m d) * cand d

/-- A sum of exponentials over a nonempty range is positive. -/
theorem sum_exp_pos {n : ℕ} (hn : 0 < n) (x : Fin n → ℝ) : 0 < ∑ i, Real.exp (x i) :=
  Finset.sum_pos (fun i _ => Real.exp_pos _) ⟨⟨0, hn⟩, Finset.mem_univ _⟩

/-- A softmax does not depend on the shift. -/
theorem softmax_shift {n : ℕ} (x : Fin n → ℝ) (c : ℝ) (i : Fin n) :
    Real.exp (x i - c) / ∑ j, Real.exp (x j - c) = Real.exp (x i) / ∑ j, Real.exp (x j) := by
  simp only [Real.exp_sub]
  rw [← Finset.sum_div]
  exact div_div_div_cancel_right₀ (Real.exp_ne_zero c) _ _

theorem rP_eq (w : Fin nM → Fin nD → ℝ) (ctx : Fin nS → Fin nD → ℝ) (c1 : Fin nM → ℝ) (m : Fin nM) (s : Fin nS) :
    rP w ctx c1 m s = Real.exp (logit w ctx m s) / expSum w ctx m :=
  softmax_shift (fun s => logit w ctx m s) (c1 m) s

/-- The embedding is the unnormalised embedding divided by the exponential sum. -/
theorem rEmb_eq (w : Fin nM → Fin nD → ℝ) (ctx : Fin nS → Fin nD → ℝ) (c1 : Fin nM → ℝ) (m : Fin nM) (d : Fin nD) :
    rEmb w ctx c1 m d = embU w ctx m d / expSum w ctx m := by
  unfold rEmb embU
  rw [Finset.sum_div]
  exact Finset.sum_congr rfl fun s _ => by rw [rP_eq]; ring

/-- The two arrangements' second-stage logits agree. -/
theorem rL2_eq (w : Fin nM → Fin nD → ℝ) (ctx : Fin nS → Fin nD → ℝ) (c1 : Fin nM → ℝ) (cand : Fin nD → ℝ) (m : Fin nM) :
    rL2 w ctx c1 cand m = kLt w ctx cand m := by
  unfold rL2 kLt
  rw [Finset.sum_div]
  exact Finset.sum_congr rfl fun d _ => by rw [rEmb_eq]; ring

/-- The two arrangements' scores agree, whatever the shifts. -/
theorem kOut_eq_rOut (w : Fin nM → Fin nD → ℝ) (ctx : Fin nS → Fin nD → ℝ) (cand : Fin nD → ℝ)
    (c1 : Fin nM → ℝ) (c2 c3 : ℝ) : kOut w ctx cand c3 = rOut w ctx c1 cand c2 := by
  unfold rOut kOut
  have hl : ∀ m, rL2 w ctx c1 cand m = kLt w ctx cand m := rL2_eq w ctx c1 cand
  simp only [hl]
  set l := kLt w ctx cand with hldef
  have hp : ∀ m, Real.exp (l m - c2) / ∑ m', Real.exp (l m' - c2) = Real.exp (l m - c3) / ∑ m', Real.exp (l m' - c3) :=
    fun m => (softmax_shift l c2 m).trans (softmax_shift l c3 m).symm
  simp only [hp]
  set Z := ∑ m', Real.exp (l m' - c3) with hZ
  -- move the candidate inside, exchange the two sums, and recognise the second-stage logit
  have : ∀ d, (∑ m, Real.exp (l m - c3) / Z * rEmb w ctx c1 m d) * cand d
      = ∑ m, Real.exp (l m - c3) / Z * (cand d * rEmb w ctx c1 m d) := fun d => by
    rw [Finset.sum_mul]; exact Finset.sum_congr rfl fun m _ => by ring
  simp only [this]
  rw [Finset.sum_comm]
  simp only [← Finset.mul_sum]
  rw [Finset.sum_div]
  refine Finset.sum_congr rfl fun m _ => ?_
  have : ∑ d, cand d * rEmb w ctx c1 m d = l m := hl m
  rw [this]; ring

end Cert.Proof.PolyReal

end
-- ==== Proof.LibCoeLift.lean ====
/-
  Extended-real operations on real arguments stay real: finite sums, the quotient by a nonzero real, and a running
  maximum started at -∞ over a nonempty range. With these, a chain of sums, products, exponentials, quotients and
  maxima of real inputs is read as one real number.
-/
import Idealize.ShloMosaic.PureOps.Ideal
import Idealize.ShloMosaic.PureOps.Ideal.Laws

noncomputable section

namespace Cert.Proof.CoeLift

open Idealize.ShloMosaic

/-- A finite sum of reals, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The extended quotient of two reals, the divisor nonzero, is the real quotient. -/
theorem div_coe_coe (a b : ℝ) (hb : b ≠ 0) : Ideal.div (a : EReal) (b : EReal) = ((a / b : ℝ) : EReal) := by
  rw [Ideal.div_coe hb, ← EReal.coe_mul, mul_one_div]

/-- The word of the negative infinity denotes the bottom of the extended reals. -/
theorem ofBits_neg_inf : Ideal.ofBits .f32 0xFF800000#32 = (⊥ : EReal) := by
  simp [Ideal.ofBits, Ideal.ieee]

/-- A running maximum from -∞ over a nonempty finite set of reals is a real. -/
theorem fold_max_coe_of_nonempty {ι : Type} (s : Finset ι) (hs : s.Nonempty) (f : ι → ℝ) :
    ∃ c : ℝ, s.fold max (⊥ : EReal) (fun i => ((f i : ℝ) : EReal)) = (c : EReal) := by
  induction hs using Finset.Nonempty.cons_induction with
  | singleton a => exact ⟨f a, by rw [Finset.fold_singleton, max_bot_right]⟩
  | cons a s ha hs ih =>
    obtain ⟨c, hc⟩ := ih
    exact ⟨max (f a) c, by rw [Finset.fold_cons, hc]; exact (EReal.coe_strictMono.monotone.map_max).symm⟩

/-- The same over a whole nonempty range. -/
theorem fold_max_coe {n : ℕ} (hn : 0 < n) (f : Fin n → ℝ) :
    ∃ c : ℝ, (Finset.univ : Finset (Fin n)).fold max (⊥ : EReal) (fun i => ((f i : ℝ) : EReal)) = (c : EReal) :=
  fold_max_coe_of_nonempty _ ⟨⟨0, hn⟩, Finset.mem_univ _⟩ f

end Cert.Proof.CoeLift

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelScore.lean ====
/-
  One batch element's scoring chain, as the kernel body computes it on vectors, stage by stage, and what each stage
  holds on REAL inputs.

  On a [64, 768] table of poly codes `w`, a [512, 768] block of context token states `ctx` and a [1024, 768] block of
  candidates `cand`: `L = w · ctxᵀ` ([64, 512]); `E = exp L`; `S = Σ_s E` (per code); `U = E · ctx` ([64, 768]);
  `X = U · candᵀ` ([64, 1024]); `lt = X / S` (the second-stage logits, codes along the rows); per candidate the maximum
  over the codes, the exponentials of the shifted logits, and the quotient of `Σ_m el · lt` by `Σ_m el`.
  The body runs this chain four times per grid point, once per batch element of the block; each of the four stored
  values is this one function of the element's slices.

  When the three inputs hold real numbers every stage holds real numbers: the products and sums stay real, each
  exponential sum is positive so each quotient is the real quotient, and the running maximum from -∞ over the 64 codes
  is a real. The result at candidate `r` is the deferred arrangement's score of PolyReal, for SOME real shift.
-/
import proofs.«111943_g12025908429422_cont_fleet_699_21_alg».proof.Proof.Gen.KernelIdeal.Skeleton
import proofs.«111943_g12025908429422_cont_fleet_699_21_alg».proof.Proof.PolyReal
import proofs.«111943_g12025908429422_cont_fleet_699_21_alg».proof.Proof.LibCoeLift
import proofs.«111943_g12025908429422_cont_fleet_699_21_alg».proof.Proof.LibPlainDot
import proofs.«111943_g12025908429422_cont_fleet_699_21_alg».proof.Proof.LibLayoutCol
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Score

open Cert.KernelIdeal Cert.KernelIdeal.Facts₀ Idealize.ShloMosaic Idealize.ShloMosaic.ValueIdx
open Cert.Proof

variable {F : FTy → Type} [FloatOps F]

/-! ## The chain, stage by stage -/

/-- First-stage logits `w · ctxᵀ`. -/
def stL (w : Vec F S64x768 .f32) (ctx : FVec F S512x768 .f32) : FVec F S64x512 .f32 :=
  matmul dot_S64x768_S512x768_S64x512_1_1_0_0_n_n none w ctx (constant S64x512 .f32 0x00000000#32)

/-- Their exponentials, unshifted. -/
def stE (w : Vec F S64x768 .f32) (ctx : FVec F S512x768 .f32) : FVec F S64x512 .f32 := exp (stL w ctx)

/-- The exponential sum of each code. -/
def stS (w : Vec F S64x768 .f32) (ctx : FVec F S512x768 .f32) : FVec F S64 .f32 :=
  multiReduction .add [1] S64 (stE w ctx) 0x00000000#32 reduces_S64x512_S64 (.inl rfl) rfl

/-- The unnormalised embeddings `E · ctx`. -/
def stU (w : Vec F S64x768 .f32) (ctx : FVec F S512x768 .f32) : FVec F S64x768 .f32 :=
  matmul dot_S64x512_S512x768_S64x768_1_0_0_1_n_n none (stE w ctx) ctx (constant S64x768 .f32 0x00000000#32)

/-- The second-stage logits, codes along the rows: `(U · candᵀ) / S`. -/
def stLt (w : Vec F S64x768 .f32) (ctx : FVec F S512x768 .f32) (cand : FVec F S1024x768 .f32) : FVec F S64x1024 .f32 :=
  divf (matmul dot_S64x768_S1024x768_S64x1024_1_1_0_0_n_n none (stU w ctx) cand (constant S64x1024 .f32 0x00000000#32))
    (broadcastTo S64x1024 (shapeCast S64x1 (stS w ctx) shapeCasts_S64_S64x1) broadcasts_S64x1_S64x1024)

/-- Each candidate's maximum over the codes. -/
def stLm (w : Vec F S64x768 .f32) (ctx : FVec F S512x768 .f32) (cand : FVec F S1024x768 .f32) : FVec F S1024 .f32 :=
  multiReduction .maximumf [0] S1024 (stLt w ctx cand) 0xFF800000#32 reduces_S64x1024_S1024 (.inl rfl) rfl

/-- The exponentials of the shifted second-stage logits. -/
def stEl (w : Vec F S64x768 .f32) (ctx : FVec F S512x768 .f32) (cand : FVec F S1024x768 .f32) : FVec F S64x1024 .f32 :=
  exp (subf (stLt w ctx cand)
    (broadcastTo S64x1024 (shapeCast S1x1024 (stLm w ctx cand) shapeCasts_S1024_S1x1024) broadcasts_S1x1024_S64x1024))

/-- The scores of the 1024 candidates. -/
def score (w : Vec F S64x768 .f32) (ctx : FVec F S512x768 .f32) (cand : FVec F S1024x768 .f32) : FVec F S1024 .f32 :=
  divf (multiReduction .add [0] S1024 (mulf (stEl w ctx cand) (stLt w ctx cand)) 0x00000000#32 reduces_S64x1024_S1024 (.inl rfl) rfl)
    (multiReduction .add [0] S1024 (stEl w ctx cand) 0x00000000#32 reduces_S64x1024_S1024 (.inl rfl) rfl)

/-- What is stored for one batch element: the scores of its slices, as a [1, 1, 1024] row. -/
def stored (w : Vec F S64x768 .f32) (c1 : Vec F S1x512x768 .f32) (d1 : Vec F S1x1024x768 .f32) : FVec F S1x1x1024 .f32 :=
  shapeCast S1x1x1024 (score w (shapeCast S512x768 c1 shapeCasts_S1x512x768_S512x768)
    (shapeCast S1024x768 d1 shapeCasts_S1x1024x768_S1024x768)) shapeCasts_S1024_S1x1x1024

/-! ## The body's four stored values are that chain -/

theorem pay_elem0 (v0 : Vec F S64x768 .f32) (v1 : Vec F S1x512x768 .f32) (v3 : Vec F S1x1024x768 .f32) :
    Gen.k0_pay3 v0 v1 v3 = stored v0 v1 v3 := rfl

theorem pay_elem1 (v0 : Vec F S64x768 .f32) (v25 : Vec F S1x512x768 .f32) (v27 : Vec F S1x1024x768 .f32) :
    Gen.k0_pay8 (Gen.k0_pay4 v25) (Gen.k0_pay5 v27) (Gen.k0_pay6 v0 v25) (Gen.k0_pay7 v0 v25) = stored v0 v25 v27 := rfl

theorem pay_elem2 (v0 : Vec F S64x768 .f32) (v49 : Vec F S1x512x768 .f32) (v51 : Vec F S1x1024x768 .f32) :
    Gen.k0_pay1 (Gen.k0_pay9 v0 v49 v51) = stored v0 v49 v51 := rfl

theorem pay_elem3 (v0 : Vec F S64x768 .f32) (v73 : Vec F S1x512x768 .f32) (v75 : Vec F S1x1024x768 .f32) :
    Gen.k0_pay2 v0 v73 v75 = stored v0 v73 v75 := rfl

/-! ## The whole result array -/

/-- Batch element `b`'s context token states, a [512, 768] slice of the [32, 512, 768] argument. -/
def sliceCtx (x0 : FVec F S32x512x768 .f32) (b : Fin 32) : FVec F S512x768 .f32 := fun j => x0 (ix3 b (j 0) (j 1))

/-- Batch element `b`'s candidates, a [1024, 768] slice of the [32, 1024, 768] argument. -/
def sliceCand (x1 : FVec F S32x1024x768 .f32) (b : Fin 32) : FVec F S1024x768 .f32 := fun j => x1 (ix3 b (j 0) (j 1))

/-- The [32, 1024] result: entry `(b, r)` is candidate `r`'s score within batch element `b`. -/
def resultArray (x0 : FVec F S32x512x768 .f32) (x1 : FVec F S32x1024x768 .f32) (x2 : FVec F S64x768 .f32) :
    FVec F S32x1024 .f32 :=
  fun i => score x2 (sliceCtx x0 (i 0)) (sliceCand x1 (i 0)) (ix1 (i 1))

theorem resultArray_apply (x0 : FVec F S32x512x768 .f32) (x1 : FVec F S32x1024x768 .f32) (x2 : FVec F S64x768 .f32)
    (b : Fin 32) (r : Fin 1024) :
    resultArray x0 x1 x2 (ix2 b r) = score x2 (sliceCtx x0 b) (sliceCand x1 b) (ix1 r) := rfl

end Cert.KernelIdeal.Score

end
-- ==== Proof.KernelRun.lean ====
/-
  The kernel program's run with its result array named as one whole-array function.

  The program is one pipelined region over a grid of 8 points followed by a host reshape. At point `t` the body takes
  the [4, 512, 768] block `t` of the context argument, the [4, 1024, 768] block `t` of the candidate argument and the
  whole [64, 768] code table, and stores, for each of the block's four batch elements `k`, that element's 1024 scores
  as row `k` of the [1, 4, 1024] output block. The eight blocks tile the [8, 4, 1024] region result, whose entry
  `(p, k, r)` is therefore candidate `r`'s score within batch element `4 p + k`; the reshape to [32, 1024] sends row-major
  position to row-major position, so the final entry `(b, r)` is candidate `r`'s score within batch element `b`:
  `Score.resultArray` of the three argument arrays.
-/
import proofs.«111943_g12025908429422_cont_fleet_699_21_alg».proof.Proof.Gen.KernelIdeal.Frame
import proofs.«111943_g12025908429422_cont_fleet_699_21_alg».proof.Proof.KernelScore
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.RunValue

open Cert.KernelIdeal Cert.KernelIdeal.Gen Cert.KernelIdeal.Score
open Idealize.ShloMosaic Idealize.ShloMosaic.TcCoe Idealize.SL.Sem Idealize.ShloMosaic.ValueIdx
open Idealize.ShloMosaic.Pipeline (Dat)

variable {F : FTy → Type} [FloatOps F]

/-! ## One point's output block, from the point's input blocks -/

/-- Batch element `k` of a [4, 512, 768] block of context token states. -/
def blockCtx (x0 : Vec F S4x512x768 .f32) (k : Fin 4) : FVec F S512x768 .f32 := fun j => x0 (ix3 k (j 0) (j 1))

/-- Batch element `k` of a [4, 1024, 768] block of candidates. -/
def blockCand (x1 : Vec F S4x1024x768 .f32) (k : Fin 4) : FVec F S1024x768 .f32 := fun j => x1 (ix3 k (j 0) (j 1))

/-- The [1, 4, 1024] block a point writes: row `k` holds the scores of the block's batch element `k`. -/
def blockRows (x0 : Vec F S4x512x768 .f32) (x1 : Vec F S4x1024x768 .f32) (x2 : Vec F S64x768 .f32) : Vec F S1x4x1024 .f32 :=
  fun y => score x2 (blockCtx x0 (y 1)) (blockCand x1 (y 1)) (ix1 (y 2))

theorem zeros2 : (![0, 0] : Fin 2 → Nat) = fun _ => 0 := funext fun a => by fin_cases a <;> rfl

/-- A stored row read at an index: the score of the index's last coordinate. -/
theorem stored_apply (w : Vec F S64x768 .f32) (c1 : Vec F S1x512x768 .f32) (d1 : Vec F S1x1024x768 .f32) (x : S1x1x1024.Idx) :
    stored w c1 d1 x = score w (shapeCast S512x768 c1 Facts₀.shapeCasts_S1x512x768_S512x768)
      (shapeCast S1024x768 d1 Facts₀.shapeCasts_S1x1024x768_S1024x768) (ix1 (x 2)) := by
  unfold stored
  refine shapeCast_apply _ _ x (ix1 (x 2)) ?_
  rw [Shape.rowMajor_val_three, Shape.rowMajor_val_one]
  have h0 : (x 0).val < 1 := (x 0).isLt
  have h1 : (x 1).val < 1 := (x 1).isLt
  show (x 2).val = ((x 0).val * 1 + (x 1).val) * 1024 + (x 2).val
  omega

/-- The whole-table load reads the table. -/
theorem load_table (x2 : Vec F S64x768 .f32) : View.ld x2 r0_0 = x2 := View.ld_unit_zero (S := S64x768) zeros2 _ x2

/-- The load of batch element `k`'s [1, 512, 768] slice of a context block, cast to [512, 768], is that element's slice. -/
theorem load_ctx (x0 : Vec F S4x512x768 .f32) (k : Fin 4) (off : Fin 3 → Nat) (hoff : off = ![k.val, 0, 0])
    (inb : ∀ a, off a + S1x512x768.size a ≤ S4x512x768.size a) :
    shapeCast S512x768 (View.ld x0 (Rect.unit (s := S4x512x768) off S1x512x768.size inb)) Facts₀.shapeCasts_S1x512x768_S512x768
      = blockCtx x0 k := by
  subst hoff
  funext j
  obtain ⟨p, q, rfl⟩ : ∃ (p : Fin 512) (q : Fin 768), j = ix2 p q := ⟨j 0, j 1, eq_ix2 j⟩
  rw [shapeCast_1ab_ab_apply]
  show x0 _ = x0 (ix3 k p q)
  congr 1
  funext a
  apply Fin.ext
  match a with
  | ⟨0, _⟩ => show k.val + 1 * 0 = k.val; omega
  | ⟨1, _⟩ => show 0 + 1 * p.val = p.val; omega
  | ⟨2, _⟩ => show 0 + 1 * q.val = q.val; omega

/-- The same for a candidate block. -/
theorem load_cand (x1 : Vec F S4x1024x768 .f32) (k : Fin 4) (off : Fin 3 → Nat) (hoff : off = ![k.val, 0, 0])
    (inb : ∀ a, off a + S1x1024x768.size a ≤ S4x1024x768.size a) :
    shapeCast S1024x768 (View.ld x1 (Rect.unit (s := S4x1024x768) off S1x1024x768.size inb)) Facts₀.shapeCasts_S1x1024x768_S1024x768
      = blockCand x1 k := by
  subst hoff
  funext j
  obtain ⟨p, q, rfl⟩ : ∃ (p : Fin 1024) (q : Fin 768), j = ix2 p q := ⟨j 0, j 1, eq_ix2 j⟩
  rw [shapeCast_1ab_ab_apply]
  show x1 _ = x1 (ix3 k p q)
  congr 1
  funext a
  apply Fin.ext
  match a with
  | ⟨0, _⟩ => show k.val + 1 * 0 = k.val; omega
  | ⟨1, _⟩ => show 0 + 1 * p.val = p.val; omega
  | ⟨2, _⟩ => show 0 + 1 * q.val = q.val; omega

/-- Batch element `k`'s stored row is row `k` of `blockRows`: the payload at a row index is `blockRows` at the index's
    place in the block. -/
theorem row_piece (x0 : Vec F S4x512x768 .f32) (x1 : Vec F S4x1024x768 .f32) (x2 : Vec F S64x768 .f32) (k : Fin 4)
    (offA offB offS : Fin 3 → Nat) (hA : offA = ![k.val, 0, 0]) (hB : offB = ![k.val, 0, 0]) (hS : offS = ![0, k.val, 0])
    (inbA : ∀ a, offA a + S1x512x768.size a ≤ S4x512x768.size a)
    (inbB : ∀ a, offB a + S1x1024x768.size a ≤ S4x1024x768.size a)
    (inbS : ∀ a, offS a + S1x1x1024.size a ≤ S1x4x1024.size a) (x : S1x1x1024.Idx) :
    stored (View.ld x2 r0_0) (View.ld x0 (Rect.unit (s := S4x512x768) offA S1x512x768.size inbA))
        (View.ld x1 (Rect.unit (s := S4x1024x768) offB S1x1024x768.size inbB)) x
      = blockRows x0 x1 x2 ((Rect.unit (s := S1x4x1024) offS S1x1x1024.size inbS).emb x) := by
  rw [stored_apply, load_table, load_ctx x0 k offA hA, load_cand x1 k offB hB]
  subst hS
  unfold blockRows
  have e1 : ((Rect.unit (s := S1x4x1024) ![0, k.val, 0] S1x1x1024.size inbS).emb x) 1 = k := by
    apply Fin.ext
    have h1 : (x 1).val < 1 := (x 1).isLt
    show k.val + 1 * (x 1).val = k.val
    omega
  have e2 : ((Rect.unit (s := S1x4x1024) ![0, k.val, 0] S1x1x1024.size inbS).emb x) 2 = x 2 := by
    apply Fin.ext
    show 0 + 1 * (x 2).val = (x 2).val
    omega
  rw [e1, e2]

/-- WHAT THE BODY LEAVES in the output block is `blockRows` of the input blocks: each of the four stored rows is its
    row of that one function, and the four rows cover the block. -/
theorem out_block (x0 : Vec F S4x512x768 .f32) (x1 : Vec F S4x1024x768 .f32) (x2 : Vec F S64x768 .f32) :
    out0_3 x0 x1 x2 = blockRows x0 x1 x2 := by
  funext y
  unfold out0_3
  refine View.canon_apply_of_pieces (blockRows x0 x1 x2) _ ?_ y (cover0_3 _ _ _ _ y)
  intro p hp x
  simp only [List.mem_cons, List.mem_nil_iff, or_false] at hp
  rcases hp with rfl | rfl | rfl | rfl
  · exact row_piece x0 x1 x2 3 _ _ _ rfl rfl rfl inb_S4x512x768_S1x512x768_3_0_0 inb_S4x1024x768_S1x1024x768_3_0_0 inb_S1x4x1024_S1x1x1024_0_3_0 x
  · exact row_piece x0 x1 x2 2 _ _ _ rfl rfl rfl inb_S4x512x768_S1x512x768_2_0_0 inb_S4x1024x768_S1x1024x768_2_0_0 inb_S1x4x1024_S1x1x1024_0_2_0 x
  · exact row_piece x0 x1 x2 1 _ _ _ rfl rfl rfl inb_S4x512x768_S1x512x768_1_0_0 inb_S4x1024x768_S1x1024x768_1_0_0 inb_S1x4x1024_S1x1x1024_0_1_0 x
  · exact row_piece x0 x1 x2 0 _ _ _ rfl rfl rfl inb_S4x512x768_S1x512x768_0_0_0 inb_S4x1024x768_S1x1024x768_0_0_0 inb_S1x4x1024_S1x1x1024_0_0_0 x

/-! ## The region's result array -/

/-- Batch element `4 p + k`: element `k` of block `p`. -/
def batchOf (p : Fin 8) (k : Fin 4) : Fin 32 := ⟨4 * p.val + k.val, by omega⟩

/-- The region's [8, 4, 1024] result: entry `(p, k, r)` is candidate `r`'s score within batch element `4 p + k`. -/
def regionArray (x0 : FVec F S32x512x768 .f32) (x1 : FVec F S32x1024x768 .f32) (x2 : FVec F S64x768 .f32) :
    FVec F S8x4x1024 .f32 :=
  fun i => score x2 (sliceCtx x0 (batchOf (i 0) (i 1))) (sliceCand x1 (batchOf (i 0) (i 1))) (ix1 (i 2))

/-- A point's output block is the point's block of `regionArray`, once its input blocks are the point's slices of the
    argument arrays. -/
theorem rows_eq (X0 : FVec F S32x512x768 .f32) (X1 : FVec F S32x1024x768 .f32) (X2 : FVec F S64x768 .f32)
    (x0 : Vec F S4x512x768 .f32) (x1 : Vec F S4x1024x768 .f32) (x2 : Vec F S64x768 .f32) (p : Fin 8)
    (h2 : x2 = X2) (h0 : ∀ k : Fin 4, blockCtx x0 k = sliceCtx X0 (batchOf p k))
    (h1 : ∀ k : Fin 4, blockCand x1 k = sliceCand X1 (batchOf p k))
    (j : S1x4x1024.Idx) (i : S8x4x1024.Idx) (hi0 : (i 0).val = p.val) (hi1 : (i 1).val = (j 1).val)
    (hi2 : (i 2).val = (j 2).val) :
    blockRows x0 x1 x2 j = regionArray X0 X1 X2 i := by
  unfold blockRows regionArray
  have eb : batchOf (i 0) (i 1) = batchOf p (j 1) := Fin.ext (by show 4 * (i 0).val + (i 1).val = 4 * p.val + (j 1).val; omega)
  have er : i 2 = j 2 := Fin.ext hi2
  subst h2
  rw [eb, er]
  exact congrArg₂ (fun a b => score x2 a b (ix1 (j 2))) (h0 (j 1)) (h1 (j 1))

variable (m : (ℓ : Loc nD τ sig) → Buf (Elt F) ℓ) (ρ : Dev nD → PrngReg)

/-- The printed index maps, decided over the 8 grid points: the three batched windows move along their leading axis
    with the point, the table's window stays. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ t.val < 8 :=
  (by decide +kernel : ∀ t : Fin grid0.N, _)

/-- The context window's block at point `t` read at an index is the argument array at the index moved by `4 t` along
    the batch axis. -/
theorem iblk0_apply (c : Dev nD) (t : Fin cfg0.N) (x : S4x512x768.Idx) (i : S32x512x768.Idx)
    (h0 : (i 0).val = 4 * t.val + (x 0).val) (h1 : (i 1).val = (x 1).val) (h2 : (i 2).val = (x 2).val) :
    (iblk m c 0 t : Vec F S4x512x768 .f32) x = (V m c main_arg0 : S32x512x768.Idx → Elt F .f32) i := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 4 + 1 * (x 0).val = (i 0).val; omega
  | ⟨1, _⟩ => show win0_0.index t (1 : Fin 3) * 512 + 1 * (x 1).val = (i 1).val; omega
  | ⟨2, _⟩ => show win0_0.index t (2 : Fin 3) * 768 + 1 * (x 2).val = (i 2).val; omega

/-- The same for the candidate window. -/
theorem iblk1_apply (c : Dev nD) (t : Fin cfg0.N) (x : S4x1024x768.Idx) (i : S32x1024x768.Idx)
    (h0 : (i 0).val = 4 * t.val + (x 0).val) (h1 : (i 1).val = (x 1).val) (h2 : (i 2).val = (x 2).val) :
    (iblk m c 1 t : Vec F S4x1024x768 .f32) x = (V m c main_arg1 : S32x1024x768.Idx → Elt F .f32) i := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 4 + 1 * (x 0).val = (i 0).val; omega
  | ⟨1, _⟩ => show win0_1.index t (1 : Fin 3) * 1024 + 1 * (x 1).val = (i 1).val; omega
  | ⟨2, _⟩ => show win0_1.index t (2 : Fin 3) * 768 + 1 * (x 2).val = (i 2).val; omega

/-- The table's window holds the whole table at every point. -/
theorem iblk2_eq (c : Dev nD) (t : Fin cfg0.N) :
    (iblk m c 2 t : Vec F S64x768 .f32) = (V m c main_arg2 : S64x768.Idx → Elt F .f32) := by
  obtain ⟨-, -, -, -, -, -, e0, e1, -⟩ := idx_facts t
  funext x
  unfold iblk
  rw [View.read_apply]
  show V m c main_arg2 _ = V m c main_arg2 _
  congr 1
  funext a
  apply Fin.ext
  match a with
  | ⟨0, _⟩ => show win0_2.index t (0 : Fin 2) * 64 + 1 * (x 0).val = (x 0).val; omega
  | ⟨1, _⟩ => show win0_2.index t (1 : Fin 2) * 768 + 1 * (x 1).val = (x 1).val; omega

/-- WHAT POINT `t` WRITES BACK is block `t` of `regionArray` of the argument arrays as the region finds them. -/
theorem flushed_eq (c : Dev nD) (t : Fin cfg0.N) :
    (dats m 0 c).flushed 3 t
      = ((cfg0.win 3).blk t).view.read (Elt F) (regionArray (V m c main_arg0) (V m c main_arg1) (V m c main_arg2)) := by
  show (cfg0.win 3).cut (grid0.coords t) ((dats m 0 c).after 3 t) = _
  rw [after0_3, out_block]
  obtain ⟨-, -, -, -, -, -, -, -, e0, e1, e2, ht⟩ := idx_facts t
  funext j
  show blockRows (iblk m c 0 t) (iblk m c 1 t) (iblk m c 2 t) j
    = regionArray (V m c main_arg0) (V m c main_arg1) (V m c main_arg2) (((cfg0.win 3).blk t).view.emb j)
  have hj0 : (j 0).val < 1 := (j 0).isLt
  refine rows_eq _ _ _ _ _ _ ⟨t.val, ht⟩ (iblk2_eq m c t) (fun k => ?_) (fun k => ?_) j _ ?_ ?_ ?_
  · funext y
    exact iblk0_apply m c t (ix3 k (y 0) (y 1)) (ix3 (batchOf ⟨t.val, ht⟩ k) (y 0) (y 1)) rfl rfl rfl
  · funext y
    exact iblk1_apply m c t (ix3 k (y 0) (y 1)) (ix3 (batchOf ⟨t.val, ht⟩ k) (y 0) (y 1)) rfl rfl rfl
  · show win0_3.index t (0 : Fin 3) * 1 + 1 * (j 0).val = t.val; omega
  · show win0_3.index t (1 : Fin 3) * 4 + 1 * (j 1).val = (j 1).val; omega
  · show win0_3.index t (2 : Fin 3) * 1024 + 1 * (j 2).val = (j 2).val; omega

/-- An index of the region's result is in point `t`'s block iff each coordinate is in the block's range on its axis. -/
theorem mem_blk (t : Fin cfg0.N) (i : S8x4x1024.Idx) :
    i ∈ ((cfg0.win 3).blk t).view.set ↔ ∀ a : Fin 3, win0_3.index t a * S1x4x1024.size a ≤ (i a).val
      ∧ (i a).val < win0_3.index t a * S1x4x1024.size a + S1x4x1024.size a := by
  show i ∈ ((View.whole main_v0).slice (win0_3.rect t)).set ↔ _
  rw [View.set_slice_whole, Rect.mem_set_unit]
  exact Iff.rfl

/-- Every index of the region's result lies in the block of the point its leading coordinate names. -/
theorem covered (i : S8x4x1024.Idx) :
    ∃ t : Fin cfg0.N, (cfg0.win 3).flush t = true ∧ i ∈ ((cfg0.win 3).blk t).view.set := by
  have hi0 : (i 0).val < 8 := (i 0).isLt
  have hi1 : (i 1).val < 4 := (i 1).isLt
  have hi2 : (i 2).val < 1024 := (i 2).isLt
  obtain ⟨t, htv⟩ : ∃ t : Fin cfg0.N, t.val = (i 0).val := ⟨⟨(i 0).val, by rw [show cfg0.N = 8 from N_0]; exact hi0⟩, rfl⟩
  obtain ⟨-, -, -, -, -, -, -, -, e0, e1, e2, -⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4 ≤ (i 1).val ∧ (i 1).val < win0_3.index t (1 : Fin 3) * 4 + 4; omega
  | ⟨2, _⟩ => show win0_3.index t (2 : Fin 3) * 1024 ≤ (i 2).val ∧ (i 2).val < win0_3.index t (2 : Fin 3) * 1024 + 1024; omega

/-- THE REGION'S RESULT after the run is `regionArray` of the argument arrays. -/
theorem region_final (c : Dev nD) :
    (dats m 0 c).arrAt 3 cfg0.N = regionArray (V m c main_arg0) (V m c main_arg1) (V m c main_arg2) :=
  (dats m 0 c).arrAt_eq_of_cover 3 (regionArray (V m c main_arg0) (V m c main_arg1) (V m c main_arg2))
    (fun t _ => flushed_eq m c t) covered

/-! ## The host reshape after the region -/

/-- The [8, 4, 1024] region result reshaped to [32, 1024] is `resultArray`: the row-major position of `(b, r)` in
    [32, 1024] is that of `(b / 4, b % 4, r)` in [8, 4, 1024], and `4 (b / 4) + b % 4 = b`. -/
theorem reshape_region (x0 : FVec F S32x512x768 .f32) (x1 : FVec F S32x1024x768 .f32) (x2 : FVec F S64x768 .f32) :
    shapeCast S32x1024 (regionArray x0 x1 x2) Facts₀.shapeCasts_S8x4x1024_S32x1024 = resultArray x0 x1 x2 := by
  funext i
  obtain ⟨b, r, rfl⟩ : ∃ (b : Fin 32) (r : Fin 1024), i = ix2 b r := ⟨i 0, i 1, eq_ix2 i⟩
  have hb : b.val < 32 := b.isLt
  refine (shapeCast_apply (regionArray x0 x1 x2) _ (ix2 b r)
    (ix3 (⟨b.val / 4, by omega⟩ : Fin 8) (⟨b.val % 4, Nat.mod_lt _ (by decide)⟩ : Fin 4) r) ?_).trans ?_
  · rw [Shape.rowMajor_val_three, Shape.rowMajor_val_two]
    show (b.val / 4 * 4 + b.val % 4) * 1024 + r.val = b.val * 1024 + r.val
    omega
  · rw [resultArray_apply]
    have eb : batchOf (⟨b.val / 4, by omega⟩ : Fin 8) (⟨b.val % 4, Nat.mod_lt _ (by decide)⟩ : Fin 4) = b :=
      Fin.ext (by show 4 * (b.val / 4) + b.val % 4 = b.val; omega)
    show score x2 (sliceCtx x0 (batchOf _ _)) (sliceCand x1 (batchOf _ _)) (ix1 r) = _
    rw [eb]

/-- What the region leaves in its result buffer, as the host tail finds it. -/
theorem region_exit (c : Dev nD) :
    (Pipeline.withArrays spec0 c (V0 m c) (fun w => (dats m 0 c).arrAt w cfg0.N) (Proc.devRef .tc main_v0) :
        S8x4x1024.Idx → Elt F .f32)
      = regionArray (V m c main_arg0) (V m c main_arg1) (V m c main_arg2) :=
  (Pipeline.withArrays_arr spec0 launch0.win.arr_inj c (V0 m c) (fun w => (dats m 0 c).arrAt w cfg0.N) 3).trans
    (region_final m c)

/-- WHAT THE HOST TAIL LEAVES in the result buffer: the reshape of the region's result, `resultArray` of the arguments. -/
theorem tail_result (c : Dev nD) :
    Pipeline.afterTail₀ cfgs (dats m) 0 (V0 m) [hostOps1] c main_v1
      = resultArray (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v1) = _
  after_results
  show shapeCast S32x1024 (Pipeline.withArrays spec0 c (V0 m c) (fun w => (dats m 0 c).arrAt w cfg0.N)
      (Proc.devRef .tc main_v0) : S8x4x1024.Idx → Elt F .f32) Facts₀.shapeCasts_S8x4x1024_S32x1024 = _
  rw [region_exit]
  exact reshape_region _ _ _

/-! ## The run -/

/-- THE RUN, READ: every weakly fair execution of the program ends with the result buffer at `resultArray` of the three
    argument arrays and the arguments unchanged. -/
theorem run_value : θ_run defs (onTc (τ := τ) (main (F := F))) ⟨m, fun _ => 0, ρ⟩ fun r => ∀ c : Dev nD,
      r.2.mem ((c.tc : Thread nD τ).loc main_v1) = Score.resultArray (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v1 (by decide)).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.RunValue

end
-- ==== Proof.KernelValue.lean ====
/-
  The scoring chain on REAL inputs, stage by stage: when the poly codes, the context block and the candidate block
  hold real numbers, each stage of KernelScore's chain holds the real number PolyReal names for it, and the score of
  candidate `r` is the deferred arrangement's score for some real shift (the running maximum, of which only its
  being real is used).

  The three matrix products are contracted over one axis; their operand indices at an output entry are written out
  first (which coordinate of each operand the contraction runs over), so that each product is a sum over `Fin 768` or
  `Fin 512` of real products.
-/
import proofs.«111943_g12025908429422_cont_fleet_699_21_alg».proof.Proof.KernelScore

noncomputable section

namespace Cert.KernelIdeal.Score

open Cert.KernelIdeal Cert.KernelIdeal.Facts₀ Idealize.ShloMosaic Idealize.ShloMosaic.ValueIdx
open Cert.Proof

/-! ## The products' operand indices -/

/-- `w · ctxᵀ` at `(m, s)` runs over `w`'s row `m`. -/
theorem dotL_lhs_non (i : S64x512.Idx) (q : dot_S64x768_S512x768_S64x512_1_1_0_0_n_n.contr.Idx) :
    (dot_S64x768_S512x768_S64x512_1_1_0_0_n_n.lhsIdx i q 0).val = (i 0).val := by
  unfold DotDims.lhsIdx
  rw [dif_neg (show ¬(0 : Fin S64x768.rank) ∈ dot_S64x768_S512x768_S64x512_1_1_0_0_n_n.lhsBatch by decide),
    dif_pos (show (0 : Fin S64x768.rank) ∈ dot_S64x768_S512x768_S64x512_1_1_0_0_n_n.lhsNonContracting by decide)]
  rfl
theorem dotL_lhs_contr (i : S64x512.Idx) (q : dot_S64x768_S512x768_S64x512_1_1_0_0_n_n.contr.Idx) :
    (dot_S64x768_S512x768_S64x512_1_1_0_0_n_n.lhsIdx i q 1).val = (q ⟨0, by decide⟩).val :=
  dot_S64x768_S512x768_S64x512_1_1_0_0_n_n.lhsIdx_val_of_single rfl i q
theorem dotL_lhs (m : Fin 64) (s : Fin 512) (q : dot_S64x768_S512x768_S64x512_1_1_0_0_n_n.contr.Idx) :
    dot_S64x768_S512x768_S64x512_1_1_0_0_n_n.lhsIdx (ix2 m s) q = ix2 m (contrEquiv1 dot_S64x768_S512x768_S64x512_1_1_0_0_n_n 768 rfl rfl q) :=
  funext fun a => Fin.ext (by
    match a with
    | ⟨0, _⟩ => exact dotL_lhs_non _ _
    | ⟨1, _⟩ => exact dotL_lhs_contr _ _)

/-- … and over `ctx`'s row `s`. -/
theorem dotL_rhs_non (i : S64x512.Idx) (q : dot_S64x768_S512x768_S64x512_1_1_0_0_n_n.contr.Idx) :
    (dot_S64x768_S512x768_S64x512_1_1_0_0_n_n.rhsIdx i q 0).val = (i 1).val := by
  unfold DotDims.rhsIdx
  rw [dif_neg (show ¬(0 : Fin S512x768.rank) ∈ dot_S64x768_S512x768_S64x512_1_1_0_0_n_n.rhsBatch by decide),
    dif_pos (show (0 : Fin S512x768.rank) ∈ dot_S64x768_S512x768_S64x512_1_1_0_0_n_n.rhsNonContracting by decide)]
  rfl
theorem dotL_rhs_contr (i : S64x512.Idx) (q : dot_S64x768_S512x768_S64x512_1_1_0_0_n_n.contr.Idx) :
    (dot_S64x768_S512x768_S64x512_1_1_0_0_n_n.rhsIdx i q 1).val = (q ⟨0, by decide⟩).val :=
  dot_S64x768_S512x768_S64x512_1_1_0_0_n_n.rhsIdx_val_of_single rfl i q
theorem dotL_rhs (m : Fin 64) (s : Fin 512) (q : dot_S64x768_S512x768_S64x512_1_1_0_0_n_n.contr.Idx) :
    dot_S64x768_S512x768_S64x512_1_1_0_0_n_n.rhsIdx (ix2 m s) q = ix2 s (contrEquiv1 dot_S64x768_S512x768_S64x512_1_1_0_0_n_n 768 rfl rfl q) :=
  funext fun a => Fin.ext (by
    match a with
    | ⟨0, _⟩ => exact dotL_rhs_non _ _
    | ⟨1, _⟩ => exact dotL_rhs_contr _ _)

/-- `E · ctx` at `(m, d)` runs over `E`'s row `m`. -/
theorem dotU_lhs_non (i : S64x768.Idx) (q : dot_S64x512_S512x768_S64x768_1_0_0_1_n_n.contr.Idx) :
    (dot_S64x512_S512x768_S64x768_1_0_0_1_n_n.lhsIdx i q 0).val = (i 0).val := by
  unfold DotDims.lhsIdx
  rw [dif_neg (show ¬(0 : Fin S64x512.rank) ∈ dot_S64x512_S512x768_S64x768_1_0_0_1_n_n.lhsBatch by decide),
    dif_pos (show (0 : Fin S64x512.rank) ∈ dot_S64x512_S512x768_S64x768_1_0_0_1_n_n.lhsNonContracting by decide)]
  rfl
theorem dotU_lhs_contr (i : S64x768.Idx) (q : dot_S64x512_S512x768_S64x768_1_0_0_1_n_n.contr.Idx) :
    (dot_S64x512_S512x768_S64x768_1_0_0_1_n_n.lhsIdx i q 1).val = (q ⟨0, by decide⟩).val :=
  dot_S64x512_S512x768_S64x768_1_0_0_1_n_n.lhsIdx_val_of_single rfl i q
theorem dotU_lhs (m : Fin 64) (d : Fin 768) (q : dot_S64x512_S512x768_S64x768_1_0_0_1_n_n.contr.Idx) :
    dot_S64x512_S512x768_S64x768_1_0_0_1_n_n.lhsIdx (ix2 m d) q = ix2 m (contrEquiv1 dot_S64x512_S512x768_S64x768_1_0_0_1_n_n 512 rfl rfl q) :=
  funext fun a => Fin.ext (by
    match a with
    | ⟨0, _⟩ => exact dotU_lhs_non _ _
    | ⟨1, _⟩ => exact dotU_lhs_contr _ _)

/-- … and down `ctx`'s column `d`. -/
theorem dotU_rhs_non (i : S64x768.Idx) (q : dot_S64x512_S512x768_S64x768_1_0_0_1_n_n.contr.Idx) :
    (dot_S64x512_S512x768_S64x768_1_0_0_1_n_n.rhsIdx i q 1).val = (i 1).val := by
  unfold DotDims.rhsIdx
  rw [dif_neg (show ¬(1 : Fin S512x768.rank) ∈ dot_S64x512_S512x768_S64x768_1_0_0_1_n_n.rhsBatch by decide),
    dif_pos (show (1 : Fin S512x768.rank) ∈ dot_S64x512_S512x768_S64x768_1_0_0_1_n_n.rhsNonContracting by decide)]
  rfl
theorem dotU_rhs_contr (i : S64x768.Idx) (q : dot_S64x512_S512x768_S64x768_1_0_0_1_n_n.contr.Idx) :
    (dot_S64x512_S512x768_S64x768_1_0_0_1_n_n.rhsIdx i q 0).val = (q ⟨0, by decide⟩).val :=
  dot_S64x512_S512x768_S64x768_1_0_0_1_n_n.rhsIdx_val_of_single rfl i q
theorem dotU_rhs (m : Fin 64) (d : Fin 768) (q : dot_S64x512_S512x768_S64x768_1_0_0_1_n_n.contr.Idx) :
    dot_S64x512_S512x768_S64x768_1_0_0_1_n_n.rhsIdx (ix2 m d) q = ix2 (contrEquiv1 dot_S64x512_S512x768_S64x768_1_0_0_1_n_n 512 rfl rfl q) d :=
  funext fun a => Fin.ext (by
    match a with
    | ⟨0, _⟩ => exact dotU_rhs_contr _ _
    | ⟨1, _⟩ => exact dotU_rhs_non _ _)

/-- `U · candᵀ` at `(m, r)` runs over `U`'s row `m`. -/
theorem dotX_lhs_non (i : S64x1024.Idx) (q : dot_S64x768_S1024x768_S64x1024_1_1_0_0_n_n.contr.Idx) :
    (dot_S64x768_S1024x768_S64x1024_1_1_0_0_n_n.lhsIdx i q 0).val = (i 0).val := by
  unfold DotDims.lhsIdx
  rw [dif_neg (show ¬(0 : Fin S64x768.rank) ∈ dot_S64x768_S1024x768_S64x1024_1_1_0_0_n_n.lhsBatch by decide),
    dif_pos (show (0 : Fin S64x768.rank) ∈ dot_S64x768_S1024x768_S64x1024_1_1_0_0_n_n.lhsNonContracting by decide)]
  rfl
theorem dotX_lhs_contr (i : S64x1024.Idx) (q : dot_S64x768_S1024x768_S64x1024_1_1_0_0_n_n.contr.Idx) :
    (dot_S64x768_S1024x768_S64x1024_1_1_0_0_n_n.lhsIdx i q 1).val = (q ⟨0, by decide⟩).val :=
  dot_S64x768_S1024x768_S64x1024_1_1_0_0_n_n.lhsIdx_val_of_single rfl i q
theorem dotX_lhs (m : Fin 64) (r : Fin 1024) (q : dot_S64x768_S1024x768_S64x1024_1_1_0_0_n_n.contr.Idx) :
    dot_S64x768_S1024x768_S64x1024_1_1_0_0_n_n.lhsIdx (ix2 m r) q = ix2 m (contrEquiv1 dot_S64x768_S1024x768_S64x1024_1_1_0_0_n_n 768 rfl rfl q) :=
  funext fun a => Fin.ext (by
    match a with
    | ⟨0, _⟩ => exact dotX_lhs_non _ _
    | ⟨1, _⟩ => exact dotX_lhs_contr _ _)

/-- … and over `cand`'s row `r`. -/
theorem dotX_rhs_non (i : S64x1024.Idx) (q : dot_S64x768_S1024x768_S64x1024_1_1_0_0_n_n.contr.Idx) :
    (dot_S64x768_S1024x768_S64x1024_1_1_0_0_n_n.rhsIdx i q 0).val = (i 1).val := by
  unfold DotDims.rhsIdx
  rw [dif_neg (show ¬(0 : Fin S1024x768.rank) ∈ dot_S64x768_S1024x768_S64x1024_1_1_0_0_n_n.rhsBatch by decide),
    dif_pos (show (0 : Fin S1024x768.rank) ∈ dot_S64x768_S1024x768_S64x1024_1_1_0_0_n_n.rhsNonContracting by decide)]
  rfl
theorem dotX_rhs_contr (i : S64x1024.Idx) (q : dot_S64x768_S1024x768_S64x1024_1_1_0_0_n_n.contr.Idx) :
    (dot_S64x768_S1024x768_S64x1024_1_1_0_0_n_n.rhsIdx i q 1).val = (q ⟨0, by decide⟩).val :=
  dot_S64x768_S1024x768_S64x1024_1_1_0_0_n_n.rhsIdx_val_of_single rfl i q
theorem dotX_rhs (m : Fin 64) (r : Fin 1024) (q : dot_S64x768_S1024x768_S64x1024_1_1_0_0_n_n.contr.Idx) :
    dot_S64x768_S1024x768_S64x1024_1_1_0_0_n_n.rhsIdx (ix2 m r) q = ix2 r (contrEquiv1 dot_S64x768_S1024x768_S64x1024_1_1_0_0_n_n 768 rfl rfl q) :=
  funext fun a => Fin.ext (by
    match a with
    | ⟨0, _⟩ => exact dotX_rhs_non _ _
    | ⟨1, _⟩ => exact dotX_rhs_contr _ _)

/-! ## The stages on real inputs -/

section Real

variable (w : Vec Ideal S64x768 .f32) (ctx : FVec Ideal S512x768 .f32) (cand : FVec Ideal S1024x768 .f32)
  (wr : Fin 64 → Fin 768 → ℝ) (cr : Fin 512 → Fin 768 → ℝ) (dr : Fin 1024 → Fin 768 → ℝ)
  (hw : ∀ m d, w (ix2 m d) = ((wr m d : ℝ) : EReal)) (hc : ∀ s d, ctx (ix2 s d) = ((cr s d : ℝ) : EReal))
  (hd : ∀ r d, cand (ix2 r d) = ((dr r d : ℝ) : EReal))

include hw hc in
/-- The first-stage logits are the real logits. -/
theorem stL_apply (m : Fin 64) (s : Fin 512) : stL w ctx (ix2 m s) = ((PolyReal.logit wr cr m s : ℝ) : EReal) := by
  unfold stL
  refine (LibPlainDot.matmul_zero_apply dot_S64x768_S512x768_S64x512_1_1_0_0_n_n none 768 rfl rfl w ctx (ix2 m s)
    (fun k => ix2 m k) (fun k => ix2 s k) (dotL_lhs m s) (dotL_rhs m s)).trans ?_
  simp only [hw, hc, ← EReal.coe_mul, CoeLift.coe_sum]
  rfl

include hw hc in
/-- Their exponentials are the real exponentials. -/
theorem stE_apply (m : Fin 64) (s : Fin 512) :
    stE w ctx (ix2 m s) = ((Real.exp (PolyReal.logit wr cr m s) : ℝ) : EReal) := by
  show Ideal.exp (stL w ctx (ix2 m s)) = _
  rw [stL_apply w ctx wr cr hw hc m s]
  rfl

include hw hc in
/-- Each code's exponential sum is the real one. -/
theorem stS_apply (m : Fin 64) : stS w ctx (ix1 m) = ((PolyReal.expSum wr cr m : ℝ) : EReal) := by
  unfold stS
  refine (Ideal.multiReduction_add_single (stE w ctx) 0x00000000#32 reduces_S64x512_S64 (.inl rfl) rfl (ix1 m)).trans ?_
  have e : ∀ k : Fin 512, reduces_S64x512_S64.lift (ix1 m) k = ix2 m k := fun k =>
    funext fun a => Fin.ext (by match a with | ⟨0, _⟩ => rfl | ⟨1, _⟩ => rfl)
  show ∑ k : Fin 512, stE w ctx (reduces_S64x512_S64.lift (ix1 m) k) = _
  simp only [e, stE_apply w ctx wr cr hw hc, CoeLift.coe_sum]
  rfl

include hw hc in
/-- The unnormalised embeddings are the real ones. -/
theorem stU_apply (m : Fin 64) (d : Fin 768) : stU w ctx (ix2 m d) = ((PolyReal.embU wr cr m d : ℝ) : EReal) := by
  unfold stU
  refine (LibPlainDot.matmul_zero_apply dot_S64x512_S512x768_S64x768_1_0_0_1_n_n none 512 rfl rfl (stE w ctx) ctx (ix2 m d)
    (fun k => ix2 m k) (fun k => ix2 k d) (dotU_lhs m d) (dotU_rhs m d)).trans ?_
  simp only [stE_apply w ctx wr cr hw hc, hc, ← EReal.coe_mul, CoeLift.coe_sum]
  rfl

include hw hc hd in
/-- The second-stage logit of code `m` against candidate `r` is the deferred arrangement's real one: the exponential
    sum is positive, so the quotient is the real quotient. -/
theorem stLt_apply (m : Fin 64) (r : Fin 1024) :
    stLt w ctx cand (ix2 m r) = ((PolyReal.kLt wr cr (dr r) m : ℝ) : EReal) := by
  have hX : matmul dot_S64x768_S1024x768_S64x1024_1_1_0_0_n_n none (stU w ctx) cand (constant S64x1024 .f32 0x00000000#32) (ix2 m r)
      = ((∑ d : Fin 768, PolyReal.embU wr cr m d * dr r d : ℝ) : EReal) := by
    refine (LibPlainDot.matmul_zero_apply dot_S64x768_S1024x768_S64x1024_1_1_0_0_n_n none 768 rfl rfl (stU w ctx) cand (ix2 m r)
      (fun k => ix2 m k) (fun k => ix2 r k) (dotX_lhs m r) (dotX_rhs m r)).trans ?_
    simp only [stU_apply w ctx wr cr hw hc, hd, ← EReal.coe_mul, CoeLift.coe_sum]
  have hS : broadcastTo S64x1024 (shapeCast S64x1 (stS w ctx) shapeCasts_S64_S64x1) broadcasts_S64x1_S64x1024 (ix2 m r)
      = ((PolyReal.expSum wr cr m : ℝ) : EReal) :=
    (broadcastTo_a1_ab_apply _ broadcasts_S64x1_S64x1024 m r).trans
      ((shapeCast_a_a1_apply (stS w ctx) shapeCasts_S64_S64x1 m 0).trans (stS_apply w ctx wr cr hw hc m))
  have hpos : PolyReal.expSum wr cr m ≠ 0 := ne_of_gt (PolyReal.sum_exp_pos (by decide) _)
  show Ideal.div _ _ = _
  rw [hX, hS, CoeLift.div_coe_coe _ _ hpos]
  rfl

include hw hc hd in
/-- Each candidate's running maximum over the 64 codes, started at -∞, is a real. -/
theorem stLm_apply (r : Fin 1024) : ∃ c : ℝ, stLm w ctx cand (ix1 r) = ((c : ℝ) : EReal) := by
  obtain ⟨c, hcm⟩ := CoeLift.fold_max_coe (by decide : 0 < 64) (fun k => PolyReal.kLt wr cr (dr r) k)
  refine ⟨c, ?_⟩
  unfold stLm
  refine (Ideal.multiReduction_maximumf_single (stLt w ctx cand) 0xFF800000#32 reduces_S64x1024_S1024 (.inl rfl) rfl (ix1 r)).trans ?_
  have e : (stLt w ctx cand ∘ reduces_S64x1024_S1024.lift (ix1 r))
      = fun k : Fin 64 => ((PolyReal.kLt wr cr (dr r) k : ℝ) : EReal) := funext fun k => by
    have ek : reduces_S64x1024_S1024.lift (ix1 r) k = ix2 k r :=
      funext fun a => Fin.ext (by match a with | ⟨0, _⟩ => rfl | ⟨1, _⟩ => rfl)
    show stLt w ctx cand (reduces_S64x1024_S1024.lift (ix1 r) k) = _
    rw [ek]
    exact stLt_apply w ctx cand wr cr dr hw hc hd k r
  rw [e]
  show Finset.fold max (Ideal.ofBits .f32 0xFF800000#32) _ _ = _
  rw [CoeLift.ofBits_neg_inf]
  exact hcm

include hw hc hd in
/-- The exponential of the shifted second-stage logit, the shift being the real the running maximum is. -/
theorem stEl_apply (m : Fin 64) (r : Fin 1024) (c : ℝ) (hlm : stLm w ctx cand (ix1 r) = ((c : ℝ) : EReal)) :
    stEl w ctx cand (ix2 m r) = ((Real.exp (PolyReal.kLt wr cr (dr r) m - c) : ℝ) : EReal) := by
  have hB : broadcastTo S64x1024 (shapeCast S1x1024 (stLm w ctx cand) shapeCasts_S1024_S1x1024) broadcasts_S1x1024_S64x1024 (ix2 m r)
      = ((c : ℝ) : EReal) :=
    (broadcastTo_1b_ab_apply _ broadcasts_S1x1024_S64x1024 m r).trans
      ((shapeCast_a_1a_apply (stLm w ctx cand) shapeCasts_S1024_S1x1024 0 r).trans hlm)
  show Ideal.exp (stLt w ctx cand (ix2 m r) - _) = _
  rw [hB, stLt_apply w ctx cand wr cr dr hw hc hd m r, ← EReal.coe_sub]
  rfl

include hw hc hd in
/-- THE SCORE of candidate `r` is the deferred arrangement's real score, for some real shift. -/
theorem score_apply (r : Fin 1024) :
    ∃ c : ℝ, score w ctx cand (ix1 r) = ((PolyReal.kOut wr cr (dr r) c : ℝ) : EReal) := by
  obtain ⟨c, hlm⟩ := stLm_apply w ctx cand wr cr dr hw hc hd r
  refine ⟨c, ?_⟩
  have ek : ∀ k : Fin 64, reduces_S64x1024_S1024.lift (ix1 r) k = ix2 k r := fun k =>
    funext fun a => Fin.ext (by match a with | ⟨0, _⟩ => rfl | ⟨1, _⟩ => rfl)
  have hnum : multiReduction .add [0] S1024 (mulf (stEl w ctx cand) (stLt w ctx cand)) 0x00000000#32 reduces_S64x1024_S1024 (.inl rfl) rfl (ix1 r)
      = ((∑ k : Fin 64, Real.exp (PolyReal.kLt wr cr (dr r) k - c) * PolyReal.kLt wr cr (dr r) k : ℝ) : EReal) := by
    refine (Ideal.multiReduction_add_single (mulf (stEl w ctx cand) (stLt w ctx cand)) 0x00000000#32 reduces_S64x1024_S1024 (.inl rfl) rfl (ix1 r)).trans ?_
    show ∑ k : Fin 64, stEl w ctx cand (reduces_S64x1024_S1024.lift (ix1 r) k) * stLt w ctx cand (reduces_S64x1024_S1024.lift (ix1 r) k) = _
    simp only [ek, stEl_apply w ctx cand wr cr dr hw hc hd _ r c hlm, stLt_apply w ctx cand wr cr dr hw hc hd, ← EReal.coe_mul, CoeLift.coe_sum]
  have hden : multiReduction .add [0] S1024 (stEl w ctx cand) 0x00000000#32 reduces_S64x1024_S1024 (.inl rfl) rfl (ix1 r)
      = ((∑ k : Fin 64, Real.exp (PolyReal.kLt wr cr (dr r) k - c) : ℝ) : EReal) := by
    refine (Ideal.multiReduction_add_single (stEl w ctx cand) 0x00000000#32 reduces_S64x1024_S1024 (.inl rfl) rfl (ix1 r)).trans ?_
    show ∑ k : Fin 64, stEl w ctx cand (reduces_S64x1024_S1024.lift (ix1 r) k) = _
    simp only [ek, stEl_apply w ctx cand wr cr dr hw hc hd _ r c hlm, CoeLift.coe_sum]
  have hpos : (∑ k : Fin 64, Real.exp (PolyReal.kLt wr cr (dr r) k - c)) ≠ 0 :=
    ne_of_gt (PolyReal.sum_exp_pos (by decide) _)
  show Ideal.div _ _ = _
  rw [hnum, hden, CoeLift.div_coe_coe _ _ hpos]
  rfl

end Real

/-- THE RESULT ARRAY on real arguments: entry `(b, r)` is the deferred arrangement's real score of candidate `r`
    against batch element `b`'s context, for some real shift. -/
theorem resultArray_real (x0 : FVec Ideal S32x512x768 .f32) (x1 : FVec Ideal S32x1024x768 .f32) (x2 : FVec Ideal S64x768 .f32)
    (a0 : Fin 32 → Fin 512 → Fin 768 → ℝ) (a1 : Fin 32 → Fin 1024 → Fin 768 → ℝ) (a2 : Fin 64 → Fin 768 → ℝ)
    (h0 : ∀ b s d, x0 (ix3 b s d) = ((a0 b s d : ℝ) : EReal)) (h1 : ∀ b r d, x1 (ix3 b r d) = ((a1 b r d : ℝ) : EReal))
    (h2 : ∀ m d, x2 (ix2 m d) = ((a2 m d : ℝ) : EReal)) (b : Fin 32) (r : Fin 1024) :
    ∃ c : ℝ, resultArray x0 x1 x2 (ix2 b r) = ((PolyReal.kOut a2 (a0 b) (a1 b r) c : ℝ) : EReal) :=
  score_apply x2 (sliceCtx x0 b) (sliceCand x1 b) a2 (a0 b) (a1 b) h2 (fun s d => h0 b s d) (fun r d => h1 b r d) r

end Cert.KernelIdeal.Score

end
-- ==== Proof.RefScore.lean ====
import proofs.«111943_g12025908429422_cont_fleet_699_21_alg».proof.Proof.Gen.ReferenceIdeal.Read
import proofs.«111943_g12025908429422_cont_fleet_699_21_alg».proof.Proof.PolyReal
import proofs.«111943_g12025908429422_cont_fleet_699_21_alg».proof.Proof.LibCoeLift
import Idealize.ShloMosaic.PureOps.Ideal
import Idealize.ShloMosaic.PureOps.Ideal.Laws
import Idealize.ShloMosaic.PureOps.Reduce
import Idealize.ShloMosaic.Lib.ValueIdx

/-!
  The reference program's score at an index, as a real number.

  The reference computes, for batch `b` and candidate `r`: first-stage logits `Σ_k w[m,k]·ctx[b,s,k]`, a softmax over
  the tokens `s` shifted by a running maximum, the embeddings `Σ_s p[m,s]·ctx[b,s,d]`, second-stage logits
  `Σ_d cand[b,r,d]·E[m,d]`, a softmax over the codes `m` shifted by a running maximum, the weighted mean of the
  embeddings, and its dot product with the candidate. When every input entry is a real number, every stage is a real
  number: a running maximum from `-∞` over a nonempty range of reals is some real (nothing more is used of it), a sum
  of exponentials is positive, so each quotient is the real quotient. Stage by stage the value is the real expression
  `PolyReal.rOut`.
-/

noncomputable section

namespace Cert.ReferenceIdeal.RefScore

open Idealize.ShloMosaic Idealize.ShloMosaic.ValueIdx Cert.ReferenceIdeal Cert.Proof

/-! ## The first softmax -/

/-- The codes broadcast over the batch: entry `(b, m, k)` is `w[m, k]`. -/
theorem v1_apply (x2 : FVec Ideal S64x768 .f32) (a2 : Fin 64 → Fin 768 → ℝ) (h2 : ∀ m d, x2 (ix2 m d) = ((a2 m d : ℝ) : EReal)) (b : Fin 32) (m : Fin 64) (k : Fin 768) :
    Read.val_main_v1 (F := Ideal) x2 (ix3 b m k) = ((a2 m k : ℝ) : EReal) := by
  rw [Read.val_main_v1_apply, Read.val_main_v0_apply, ← h2 m k]
  exact congrArg x2 (funext fun a => Fin.ext (by match a with | ⟨0, _⟩ => rfl | ⟨1, _⟩ => rfl))

/-- The context transposed: entry `(b, k, s)` is `ctx[b, s, k]`. -/
theorem v2_apply (x0 : FVec Ideal S32x512x768 .f32) (a0 : Fin 32 → Fin 512 → Fin 768 → ℝ) (h0 : ∀ b s d, x0 (ix3 b s d) = ((a0 b s d : ℝ) : EReal)) (b : Fin 32) (k : Fin 768) (s : Fin 512) :
    Read.val_main_v2 (F := Ideal) x0 (ix3 b k s) = ((a0 b s k : ℝ) : EReal) := by
  rw [Read.val_main_v2_apply, ← h0 b s k]
  exact congrArg x0 (funext fun a => Fin.ext (by match a with | ⟨0, _⟩ => rfl | ⟨1, _⟩ => rfl | ⟨2, _⟩ => rfl))

/-- The first-stage logit. -/
theorem v3_apply (x0 : FVec Ideal S32x512x768 .f32) (x2 : FVec Ideal S64x768 .f32) (a0 : Fin 32 → Fin 512 → Fin 768 → ℝ) (a2 : Fin 64 → Fin 768 → ℝ) (h0 : ∀ b s d, x0 (ix3 b s d) = ((a0 b s d : ℝ) : EReal)) (h2 : ∀ m d, x2 (ix2 m d) = ((a2 m d : ℝ) : EReal)) (b : Fin 32) (m : Fin 64) (s : Fin 512) :
    Read.val_main_v3 (F := Ideal) x0 x2 (ix3 b m s) = ((PolyReal.logit a2 (a0 b) m s : ℝ) : EReal) := by
  rw [Read.val_main_v3_apply]
  unfold PolyReal.logit
  rw [← CoeLift.coe_sum]
  refine Finset.sum_congr rfl fun k _ => ?_
  rw [EReal.coe_mul, ← v1_apply x2 a2 h2 b m k, ← v2_apply x0 a0 h0 b k s]
  congr 1
  · exact congrArg _ (funext fun a => Fin.ext (by match a with | ⟨0, _⟩ => rfl | ⟨1, _⟩ => rfl | ⟨2, _⟩ => rfl))
  · exact congrArg _ (funext fun a => Fin.ext (by match a with | ⟨0, _⟩ => rfl | ⟨1, _⟩ => rfl | ⟨2, _⟩ => rfl))

/-- The result index `(b, m)` with coordinate `k` put back on the reduced last axis is `(b, m, k)`. -/
theorem lift_bm (h : S32x64x512.Reduces [2] S32x64) (b : Fin 32) (m : Fin 64) (k : Fin (S32x64x512.size 2)) :
    h.lift (ix2 b m) k = ix3 b m (⟨k.val, k.isLt⟩ : Fin 512) := by
  funext c; apply Fin.ext
  fin_cases c <;> rfl

/-- The shift of the first softmax, a running maximum from `-∞` of code `m`'s logits, is some real. -/
theorem v6_real (x0 : FVec Ideal S32x512x768 .f32) (x2 : FVec Ideal S64x768 .f32) (a0 : Fin 32 → Fin 512 → Fin 768 → ℝ) (a2 : Fin 64 → Fin 768 → ℝ) (h0 : ∀ b s d, x0 (ix3 b s d) = ((a0 b s d : ℝ) : EReal)) (h2 : ∀ m d, x2 (ix2 m d) = ((a2 m d : ℝ) : EReal)) (b : Fin 32) (m : Fin 64) :
    ∃ c : ℝ, Read.val_main_v6 (F := Ideal) x0 x2 (ix2 b m) = ((c : ℝ) : EReal) := by
  obtain ⟨c, hc⟩ := CoeLift.fold_max_coe (n := 512) (by decide) (fun s => PolyReal.logit a2 (a0 b) m s)
  refine ⟨c, ?_⟩
  have h : S32x64x512.Reduces [2] S32x64 := by decide
  have hf : (Read.val_main_v3 (F := Ideal) x0 x2 ∘ h.lift (ix2 b m))
      = fun s : Fin 512 => ((PolyReal.logit a2 (a0 b) m s : ℝ) : EReal) :=
    funext fun k => by
      show Read.val_main_v3 (F := Ideal) x0 x2 (h.lift (ix2 b m) k) = _
      rw [lift_bm]; exact v3_apply x0 x2 a0 a2 h0 h2 b m _
  rw [Read.val_main_v6_apply, Read.val_main_v5_apply, Read.val_main_cst_0_apply]
  unfold Read.val_main_v4
  rw [Host.reduce_eq_fold_single FloatOps.maximumf _ _ _ h _, hf]
  show max (Ideal.ofBits .f32 0xFF800000#32) (Finset.fold max (Ideal.ofBits .f32 0xFF800000#32)
    (fun s : Fin 512 => ((PolyReal.logit a2 (a0 b) m s : ℝ) : EReal)) Finset.univ) = ((c : ℝ) : EReal)
  rw [CoeLift.ofBits_neg_inf, hc, max_bot_left]

/-- The shift broadcast over the tokens. -/
theorem v8_apply (x0 : FVec Ideal S32x512x768 .f32) (x2 : FVec Ideal S64x768 .f32) (b : Fin 32) (m : Fin 64) (s : Fin 512) :
    Read.val_main_v8 (F := Ideal) x0 x2 (ix3 b m s) = Read.val_main_v6 (F := Ideal) x0 x2 (ix2 b m) := by
  rw [Read.val_main_v8_apply, Read.val_main_v7_apply]
  exact congrArg _ (funext fun a => Fin.ext (by match a with | ⟨0, _⟩ => rfl | ⟨1, _⟩ => rfl))

/-- The exponential of the shifted logit. -/
theorem v10_apply (x0 : FVec Ideal S32x512x768 .f32) (x2 : FVec Ideal S64x768 .f32) (a0 : Fin 32 → Fin 512 → Fin 768 → ℝ) (a2 : Fin 64 → Fin 768 → ℝ)
    (h0 : ∀ b s d, x0 (ix3 b s d) = ((a0 b s d : ℝ) : EReal))
    (h2 : ∀ m d, x2 (ix2 m d) = ((a2 m d : ℝ) : EReal))
    (b : Fin 32) (c1 : Fin 64 → ℝ) (hc1 : ∀ m, Read.val_main_v6 (F := Ideal) x0 x2 (ix2 b m) = ((c1 m : ℝ) : EReal)) (m : Fin 64) (s : Fin 512) :
    Read.val_main_v10 (F := Ideal) x0 x2 (ix3 b m s)
      = ((Real.exp (PolyReal.logit a2 (a0 b) m s - c1 m) : ℝ) : EReal) := by
  rw [Read.val_main_v10_apply, Read.val_main_v9_apply, v3_apply x0 x2 a0 a2 h0 h2, v8_apply, hc1 m, Ideal.subf_def,
    ← EReal.coe_sub, Ideal.hostUnary_exp_def, Ideal.exp_coe]

/-- The sum over the tokens of the exponentials. -/
theorem v11_apply (x0 : FVec Ideal S32x512x768 .f32) (x2 : FVec Ideal S64x768 .f32) (a0 : Fin 32 → Fin 512 → Fin 768 → ℝ) (a2 : Fin 64 → Fin 768 → ℝ)
    (h0 : ∀ b s d, x0 (ix3 b s d) = ((a0 b s d : ℝ) : EReal))
    (h2 : ∀ m d, x2 (ix2 m d) = ((a2 m d : ℝ) : EReal))
    (b : Fin 32) (c1 : Fin 64 → ℝ) (hc1 : ∀ m, Read.val_main_v6 (F := Ideal) x0 x2 (ix2 b m) = ((c1 m : ℝ) : EReal)) (m : Fin 64) :
    Read.val_main_v11 (F := Ideal) x0 x2 (ix2 b m)
      = ((∑ s, Real.exp (PolyReal.logit a2 (a0 b) m s - c1 m) : ℝ) : EReal) := by
  rw [Read.val_main_v11_apply, Read.val_main_cst_1_apply, Ideal.ofBits_def, Ideal.ofBits_zero_f32, zero_add,
    ← CoeLift.coe_sum]
  refine Finset.sum_congr rfl fun s _ => ?_
  rw [← v10_apply x0 x2 a0 a2 h0 h2 b c1 hc1 m s]
  exact congrArg _ (funext fun a => Fin.ext (by match a with | ⟨0, _⟩ => rfl | ⟨1, _⟩ => rfl | ⟨2, _⟩ => rfl))

/-- The sum broadcast over the tokens. -/
theorem v13_apply (x0 : FVec Ideal S32x512x768 .f32) (x2 : FVec Ideal S64x768 .f32) (b : Fin 32) (m : Fin 64) (s : Fin 512) :
    Read.val_main_v13 (F := Ideal) x0 x2 (ix3 b m s) = Read.val_main_v11 (F := Ideal) x0 x2 (ix2 b m) := by
  rw [Read.val_main_v13_apply, Read.val_main_v12_apply]
  exact congrArg _ (funext fun a => Fin.ext (by match a with | ⟨0, _⟩ => rfl | ⟨1, _⟩ => rfl))

/-- The first softmax: the sum of exponentials is positive, so the quotient is the real quotient. -/
theorem v14_apply (x0 : FVec Ideal S32x512x768 .f32) (x2 : FVec Ideal S64x768 .f32) (a0 : Fin 32 → Fin 512 → Fin 768 → ℝ) (a2 : Fin 64 → Fin 768 → ℝ)
    (h0 : ∀ b s d, x0 (ix3 b s d) = ((a0 b s d : ℝ) : EReal))
    (h2 : ∀ m d, x2 (ix2 m d) = ((a2 m d : ℝ) : EReal))
    (b : Fin 32) (c1 : Fin 64 → ℝ) (hc1 : ∀ m, Read.val_main_v6 (F := Ideal) x0 x2 (ix2 b m) = ((c1 m : ℝ) : EReal)) (m : Fin 64) (s : Fin 512) :
    Read.val_main_v14 (F := Ideal) x0 x2 (ix3 b m s) = ((PolyReal.rP a2 (a0 b) c1 m s : ℝ) : EReal) := by
  rw [Read.val_main_v14_apply, v10_apply x0 x2 a0 a2 h0 h2 b c1 hc1, v13_apply, v11_apply x0 x2 a0 a2 h0 h2 b c1 hc1, Ideal.hostDivf_def,
    CoeLift.div_coe_coe _ _ (ne_of_gt (PolyReal.sum_exp_pos (by decide) _))]
  rfl

/-- The embedding of code `m`: the softmax-weighted mean of the token states. -/
theorem v15_apply (x0 : FVec Ideal S32x512x768 .f32) (x2 : FVec Ideal S64x768 .f32) (a0 : Fin 32 → Fin 512 → Fin 768 → ℝ) (a2 : Fin 64 → Fin 768 → ℝ)
    (h0 : ∀ b s d, x0 (ix3 b s d) = ((a0 b s d : ℝ) : EReal))
    (h2 : ∀ m d, x2 (ix2 m d) = ((a2 m d : ℝ) : EReal))
    (b : Fin 32) (c1 : Fin 64 → ℝ) (hc1 : ∀ m, Read.val_main_v6 (F := Ideal) x0 x2 (ix2 b m) = ((c1 m : ℝ) : EReal)) (m : Fin 64) (d : Fin 768) :
    Read.val_main_v15 (F := Ideal) x0 x2 (ix3 b m d) = ((PolyReal.rEmb a2 (a0 b) c1 m d : ℝ) : EReal) := by
  rw [Read.val_main_v15_apply]
  unfold PolyReal.rEmb
  rw [← CoeLift.coe_sum]
  refine Finset.sum_congr rfl fun s _ => ?_
  rw [EReal.coe_mul, ← v14_apply x0 x2 a0 a2 h0 h2 b c1 hc1 m s, ← h0 b s d]
  congr 1
  · exact congrArg _ (funext fun a => Fin.ext (by match a with | ⟨0, _⟩ => rfl | ⟨1, _⟩ => rfl | ⟨2, _⟩ => rfl))
  · exact congrArg _ (funext fun a => Fin.ext (by match a with | ⟨0, _⟩ => rfl | ⟨1, _⟩ => rfl | ⟨2, _⟩ => rfl))

/-! ## The second softmax -/

/-- The embeddings transposed: entry `(b, d, m)` is the embedding's `(b, m, d)`. -/
theorem v16_apply (x0 : FVec Ideal S32x512x768 .f32) (x2 : FVec Ideal S64x768 .f32) (b : Fin 32) (d : Fin 768) (m : Fin 64) :
    Read.val_main_v16 (F := Ideal) x0 x2 (ix3 b d m) = Read.val_main_v15 (F := Ideal) x0 x2 (ix3 b m d) := by
  rw [Read.val_main_v16_apply]
  exact congrArg _ (funext fun a => Fin.ext (by match a with | ⟨0, _⟩ => rfl | ⟨1, _⟩ => rfl | ⟨2, _⟩ => rfl))

/-- The second-stage logit of candidate `r` against code `m`. -/
theorem v17_apply (x0 : FVec Ideal S32x512x768 .f32) (x1 : FVec Ideal S32x1024x768 .f32) (x2 : FVec Ideal S64x768 .f32)
    (a0 : Fin 32 → Fin 512 → Fin 768 → ℝ) (a1 : Fin 32 → Fin 1024 → Fin 768 → ℝ) (a2 : Fin 64 → Fin 768 → ℝ)
    (h0 : ∀ b s d, x0 (ix3 b s d) = ((a0 b s d : ℝ) : EReal))
    (h1 : ∀ b r d, x1 (ix3 b r d) = ((a1 b r d : ℝ) : EReal))
    (h2 : ∀ m d, x2 (ix2 m d) = ((a2 m d : ℝ) : EReal))
    (b : Fin 32) (c1 : Fin 64 → ℝ) (hc1 : ∀ m, Read.val_main_v6 (F := Ideal) x0 x2 (ix2 b m) = ((c1 m : ℝ) : EReal))
    (r : Fin 1024) (m : Fin 64) :
    Read.val_main_v17 (F := Ideal) x0 x1 x2 (ix3 b r m) = ((PolyReal.rL2 a2 (a0 b) c1 (a1 b r) m : ℝ) : EReal) := by
  rw [Read.val_main_v17_apply]
  unfold PolyReal.rL2
  refine Eq.trans ?_ (CoeLift.coe_sum _ _)
  refine Finset.sum_congr rfl fun d _ => ?_
  have e1 : x1 (Read.lidx_main_v17 (ix3 b r m) d) = ((a1 b r d : ℝ) : EReal) :=
    (congrArg x1 (funext fun a => Fin.ext (by match a with | ⟨0, _⟩ => rfl | ⟨1, _⟩ => rfl | ⟨2, _⟩ => rfl))).trans (h1 b r d)
  have e2 : Read.val_main_v16 (F := Ideal) x0 x2 (Read.ridx_main_v17 (ix3 b r m) d)
      = ((PolyReal.rEmb a2 (a0 b) c1 m d : ℝ) : EReal) :=
    (congrArg _ (funext fun a => Fin.ext (by match a with | ⟨0, _⟩ => rfl | ⟨1, _⟩ => rfl | ⟨2, _⟩ => rfl))).trans
      ((v16_apply x0 x2 b d m).trans (v15_apply x0 x2 a0 a2 h0 h2 b c1 hc1 m d))
  rw [e1, e2]
  exact (EReal.coe_mul _ _).symm

/-- The result index `(b, r)` with coordinate `k` put back on the reduced last axis is `(b, r, k)`. -/
theorem lift_br (h : S32x1024x64.Reduces [2] S32x1024) (b : Fin 32) (r : Fin 1024) (k : Fin (S32x1024x64.size 2)) :
    h.lift (ix2 b r) k = ix3 b r (⟨k.val, k.isLt⟩ : Fin 64) := by
  funext c; apply Fin.ext
  fin_cases c <;> rfl

/-- The shift of the second softmax, a running maximum from `-∞` of the candidate's logits, is some real. -/
theorem v20_real (x0 : FVec Ideal S32x512x768 .f32) (x1 : FVec Ideal S32x1024x768 .f32) (x2 : FVec Ideal S64x768 .f32)
    (a0 : Fin 32 → Fin 512 → Fin 768 → ℝ) (a1 : Fin 32 → Fin 1024 → Fin 768 → ℝ) (a2 : Fin 64 → Fin 768 → ℝ)
    (h0 : ∀ b s d, x0 (ix3 b s d) = ((a0 b s d : ℝ) : EReal))
    (h1 : ∀ b r d, x1 (ix3 b r d) = ((a1 b r d : ℝ) : EReal))
    (h2 : ∀ m d, x2 (ix2 m d) = ((a2 m d : ℝ) : EReal))
    (b : Fin 32) (c1 : Fin 64 → ℝ) (hc1 : ∀ m, Read.val_main_v6 (F := Ideal) x0 x2 (ix2 b m) = ((c1 m : ℝ) : EReal))
    (r : Fin 1024) :
    ∃ c : ℝ, Read.val_main_v20 (F := Ideal) x0 x1 x2 (ix2 b r) = ((c : ℝ) : EReal) := by
  obtain ⟨c, hc⟩ := CoeLift.fold_max_coe (n := 64) (by decide) (fun m => PolyReal.rL2 a2 (a0 b) c1 (a1 b r) m)
  refine ⟨c, ?_⟩
  have h : S32x1024x64.Reduces [2] S32x1024 := by decide
  have hf : (Read.val_main_v17 (F := Ideal) x0 x1 x2 ∘ h.lift (ix2 b r))
      = fun m : Fin 64 => ((PolyReal.rL2 a2 (a0 b) c1 (a1 b r) m : ℝ) : EReal) :=
    funext fun k => by
      show Read.val_main_v17 (F := Ideal) x0 x1 x2 (h.lift (ix2 b r) k) = _
      rw [lift_br]; exact v17_apply x0 x1 x2 a0 a1 a2 h0 h1 h2 b c1 hc1 r _
  rw [Read.val_main_v20_apply, Read.val_main_v19_apply, Read.val_main_cst_3_apply]
  unfold Read.val_main_v18
  rw [Host.reduce_eq_fold_single FloatOps.maximumf _ _ _ h _, hf]
  show max (Ideal.ofBits .f32 0xFF800000#32) (Finset.fold max (Ideal.ofBits .f32 0xFF800000#32)
    (fun m : Fin 64 => ((PolyReal.rL2 a2 (a0 b) c1 (a1 b r) m : ℝ) : EReal)) Finset.univ) = ((c : ℝ) : EReal)
  rw [CoeLift.ofBits_neg_inf, hc, max_bot_left]

/-- The shift broadcast over the codes. -/
theorem v22_apply (x0 : FVec Ideal S32x512x768 .f32) (x1 : FVec Ideal S32x1024x768 .f32) (x2 : FVec Ideal S64x768 .f32) (b : Fin 32) (r : Fin 1024) (m : Fin 64) :
    Read.val_main_v22 (F := Ideal) x0 x1 x2 (ix3 b r m) = Read.val_main_v20 (F := Ideal) x0 x1 x2 (ix2 b r) := by
  rw [Read.val_main_v22_apply, Read.val_main_v21_apply]
  exact congrArg _ (funext fun a => Fin.ext (by match a with | ⟨0, _⟩ => rfl | ⟨1, _⟩ => rfl))

/-- The exponential of the shifted second-stage logit. -/
theorem v24_apply (x0 : FVec Ideal S32x512x768 .f32) (x1 : FVec Ideal S32x1024x768 .f32) (x2 : FVec Ideal S64x768 .f32)
    (a0 : Fin 32 → Fin 512 → Fin 768 → ℝ) (a1 : Fin 32 → Fin 1024 → Fin 768 → ℝ) (a2 : Fin 64 → Fin 768 → ℝ)
    (h0 : ∀ b s d, x0 (ix3 b s d) = ((a0 b s d : ℝ) : EReal))
    (h1 : ∀ b r d, x1 (ix3 b r d) = ((a1 b r d : ℝ) : EReal))
    (h2 : ∀ m d, x2 (ix2 m d) = ((a2 m d : ℝ) : EReal))
    (b : Fin 32) (c1 : Fin 64 → ℝ) (hc1 : ∀ m, Read.val_main_v6 (F := Ideal) x0 x2 (ix2 b m) = ((c1 m : ℝ) : EReal))
    (r : Fin 1024)
    (c2 : ℝ) (hc2 : Read.val_main_v20 (F := Ideal) x0 x1 x2 (ix2 b r) = ((c2 : ℝ) : EReal)) (m : Fin 64) :
    Read.val_main_v24 (F := Ideal) x0 x1 x2 (ix3 b r m) = ((Real.exp (PolyReal.rL2 a2 (a0 b) c1 (a1 b r) m - c2) : ℝ) : EReal) := by
  rw [Read.val_main_v24_apply, Read.val_main_v23_apply, v17_apply x0 x1 x2 a0 a1 a2 h0 h1 h2 b c1 hc1 r, v22_apply, hc2, Ideal.subf_def,
    ← EReal.coe_sub, Ideal.hostUnary_exp_def, Ideal.exp_coe]

/-- The sum over the codes of the exponentials. -/
theorem v25_apply (x0 : FVec Ideal S32x512x768 .f32) (x1 : FVec Ideal S32x1024x768 .f32) (x2 : FVec Ideal S64x768 .f32)
    (a0 : Fin 32 → Fin 512 → Fin 768 → ℝ) (a1 : Fin 32 → Fin 1024 → Fin 768 → ℝ) (a2 : Fin 64 → Fin 768 → ℝ)
    (h0 : ∀ b s d, x0 (ix3 b s d) = ((a0 b s d : ℝ) : EReal))
    (h1 : ∀ b r d, x1 (ix3 b r d) = ((a1 b r d : ℝ) : EReal))
    (h2 : ∀ m d, x2 (ix2 m d) = ((a2 m d : ℝ) : EReal))
    (b : Fin 32) (c1 : Fin 64 → ℝ) (hc1 : ∀ m, Read.val_main_v6 (F := Ideal) x0 x2 (ix2 b m) = ((c1 m : ℝ) : EReal))
    (r : Fin 1024)
    (c2 : ℝ) (hc2 : Read.val_main_v20 (F := Ideal) x0 x1 x2 (ix2 b r) = ((c2 : ℝ) : EReal)) :
    Read.val_main_v25 (F := Ideal) x0 x1 x2 (ix2 b r) = ((∑ m, Real.exp (PolyReal.rL2 a2 (a0 b) c1 (a1 b r) m - c2) : ℝ) : EReal) := by
  rw [Read.val_main_v25_apply, Read.val_main_cst_4_apply, Ideal.ofBits_def, Ideal.ofBits_zero_f32, zero_add]
  refine Eq.trans ?_ (CoeLift.coe_sum _ _)
  refine Finset.sum_congr rfl fun m _ => ?_
  exact (congrArg _ (funext fun a => Fin.ext (by match a with | ⟨0, _⟩ => rfl | ⟨1, _⟩ => rfl | ⟨2, _⟩ => rfl))).trans (v24_apply x0 x1 x2 a0 a1 a2 h0 h1 h2 b c1 hc1 r c2 hc2 m)

/-- The sum broadcast over the codes. -/
theorem v27_apply (x0 : FVec Ideal S32x512x768 .f32) (x1 : FVec Ideal S32x1024x768 .f32) (x2 : FVec Ideal S64x768 .f32) (b : Fin 32) (r : Fin 1024) (m : Fin 64) :
    Read.val_main_v27 (F := Ideal) x0 x1 x2 (ix3 b r m) = Read.val_main_v25 (F := Ideal) x0 x1 x2 (ix2 b r) := by
  rw [Read.val_main_v27_apply, Read.val_main_v26_apply]
  exact congrArg _ (funext fun a => Fin.ext (by match a with | ⟨0, _⟩ => rfl | ⟨1, _⟩ => rfl))

/-- The second softmax: the sum of exponentials is positive, so the quotient is the real quotient. -/
theorem v28_apply (x0 : FVec Ideal S32x512x768 .f32) (x1 : FVec Ideal S32x1024x768 .f32) (x2 : FVec Ideal S64x768 .f32)
    (a0 : Fin 32 → Fin 512 → Fin 768 → ℝ) (a1 : Fin 32 → Fin 1024 → Fin 768 → ℝ) (a2 : Fin 64 → Fin 768 → ℝ)
    (h0 : ∀ b s d, x0 (ix3 b s d) = ((a0 b s d : ℝ) : EReal))
    (h1 : ∀ b r d, x1 (ix3 b r d) = ((a1 b r d : ℝ) : EReal))
    (h2 : ∀ m d, x2 (ix2 m d) = ((a2 m d : ℝ) : EReal))
    (b : Fin 32) (c1 : Fin 64 → ℝ) (hc1 : ∀ m, Read.val_main_v6 (F := Ideal) x0 x2 (ix2 b m) = ((c1 m : ℝ) : EReal))
    (r : Fin 1024)
    (c2 : ℝ) (hc2 : Read.val_main_v20 (F := Ideal) x0 x1 x2 (ix2 b r) = ((c2 : ℝ) : EReal)) (m : Fin 64) :
    Read.val_main_v28 (F := Ideal) x0 x1 x2 (ix3 b r m)
      = (((Real.exp (PolyReal.rL2 a2 (a0 b) c1 (a1 b r) m - c2) / ∑ m', Real.exp (PolyReal.rL2 a2 (a0 b) c1 (a1 b r) m' - c2)) : ℝ) : EReal) := by
  rw [Read.val_main_v28_apply, v24_apply x0 x1 x2 a0 a1 a2 h0 h1 h2 b c1 hc1 r c2 hc2, v27_apply, v25_apply x0 x1 x2 a0 a1 a2 h0 h1 h2 b c1 hc1 r c2 hc2, Ideal.hostDivf_def,
    CoeLift.div_coe_coe _ _ (ne_of_gt (PolyReal.sum_exp_pos (by decide) _))]

/-! ## The score -/

/-- The candidate-conditioned mean of the embeddings. -/
theorem v29_apply (x0 : FVec Ideal S32x512x768 .f32) (x1 : FVec Ideal S32x1024x768 .f32) (x2 : FVec Ideal S64x768 .f32)
    (a0 : Fin 32 → Fin 512 → Fin 768 → ℝ) (a1 : Fin 32 → Fin 1024 → Fin 768 → ℝ) (a2 : Fin 64 → Fin 768 → ℝ)
    (h0 : ∀ b s d, x0 (ix3 b s d) = ((a0 b s d : ℝ) : EReal))
    (h1 : ∀ b r d, x1 (ix3 b r d) = ((a1 b r d : ℝ) : EReal))
    (h2 : ∀ m d, x2 (ix2 m d) = ((a2 m d : ℝ) : EReal))
    (b : Fin 32) (c1 : Fin 64 → ℝ) (hc1 : ∀ m, Read.val_main_v6 (F := Ideal) x0 x2 (ix2 b m) = ((c1 m : ℝ) : EReal))
    (r : Fin 1024)
    (c2 : ℝ) (hc2 : Read.val_main_v20 (F := Ideal) x0 x1 x2 (ix2 b r) = ((c2 : ℝ) : EReal)) (d : Fin 768) :
    Read.val_main_v29 (F := Ideal) x0 x1 x2 (ix3 b r d)
      = ((∑ m, (Real.exp (PolyReal.rL2 a2 (a0 b) c1 (a1 b r) m - c2) / ∑ m', Real.exp (PolyReal.rL2 a2 (a0 b) c1 (a1 b r) m' - c2)) * PolyReal.rEmb a2 (a0 b) c1 m d : ℝ) : EReal) := by
  rw [Read.val_main_v29_apply]
  refine Eq.trans ?_ (CoeLift.coe_sum _ _)
  refine Finset.sum_congr rfl fun m _ => ?_
  have e1 : Read.val_main_v28 (F := Ideal) x0 x1 x2 (Read.lidx_main_v29 (ix3 b r d) m)
      = (((Real.exp (PolyReal.rL2 a2 (a0 b) c1 (a1 b r) m - c2) / ∑ m', Real.exp (PolyReal.rL2 a2 (a0 b) c1 (a1 b r) m' - c2)) : ℝ) : EReal) :=
    (congrArg _ (funext fun a => Fin.ext (by match a with | ⟨0, _⟩ => rfl | ⟨1, _⟩ => rfl | ⟨2, _⟩ => rfl))).trans (v28_apply x0 x1 x2 a0 a1 a2 h0 h1 h2 b c1 hc1 r c2 hc2 m)
  have e2 : Read.val_main_v15 (F := Ideal) x0 x2 (Read.ridx_main_v29 (ix3 b r d) m)
      = ((PolyReal.rEmb a2 (a0 b) c1 m d : ℝ) : EReal) :=
    (congrArg _ (funext fun a => Fin.ext (by match a with | ⟨0, _⟩ => rfl | ⟨1, _⟩ => rfl | ⟨2, _⟩ => rfl))).trans (v15_apply x0 x2 a0 a2 h0 h2 b c1 hc1 m d)
  rw [e1, e2]
  exact (EReal.coe_mul _ _).symm

/-- The mean times the candidate, entry by entry. -/
theorem v30_apply (x0 : FVec Ideal S32x512x768 .f32) (x1 : FVec Ideal S32x1024x768 .f32) (x2 : FVec Ideal S64x768 .f32)
    (a0 : Fin 32 → Fin 512 → Fin 768 → ℝ) (a1 : Fin 32 → Fin 1024 → Fin 768 → ℝ) (a2 : Fin 64 → Fin 768 → ℝ)
    (h0 : ∀ b s d, x0 (ix3 b s d) = ((a0 b s d : ℝ) : EReal))
    (h1 : ∀ b r d, x1 (ix3 b r d) = ((a1 b r d : ℝ) : EReal))
    (h2 : ∀ m d, x2 (ix2 m d) = ((a2 m d : ℝ) : EReal))
    (b : Fin 32) (c1 : Fin 64 → ℝ) (hc1 : ∀ m, Read.val_main_v6 (F := Ideal) x0 x2 (ix2 b m) = ((c1 m : ℝ) : EReal))
    (r : Fin 1024)
    (c2 : ℝ) (hc2 : Read.val_main_v20 (F := Ideal) x0 x1 x2 (ix2 b r) = ((c2 : ℝ) : EReal)) (d : Fin 768) :
    Read.val_main_v30 (F := Ideal) x0 x1 x2 (ix3 b r d)
      = (((∑ m, (Real.exp (PolyReal.rL2 a2 (a0 b) c1 (a1 b r) m - c2) / ∑ m', Real.exp (PolyReal.rL2 a2 (a0 b) c1 (a1 b r) m' - c2)) * PolyReal.rEmb a2 (a0 b) c1 m d) * a1 b r d : ℝ) : EReal) := by
  rw [Read.val_main_v30_apply, v29_apply x0 x1 x2 a0 a1 a2 h0 h1 h2 b c1 hc1 r c2 hc2, h1 b r d, Ideal.mulf_def]
  exact (EReal.coe_mul _ _).symm

/-- The score of candidate `r` in batch `b`. -/
theorem v31_apply (x0 : FVec Ideal S32x512x768 .f32) (x1 : FVec Ideal S32x1024x768 .f32) (x2 : FVec Ideal S64x768 .f32)
    (a0 : Fin 32 → Fin 512 → Fin 768 → ℝ) (a1 : Fin 32 → Fin 1024 → Fin 768 → ℝ) (a2 : Fin 64 → Fin 768 → ℝ)
    (h0 : ∀ b s d, x0 (ix3 b s d) = ((a0 b s d : ℝ) : EReal))
    (h1 : ∀ b r d, x1 (ix3 b r d) = ((a1 b r d : ℝ) : EReal))
    (h2 : ∀ m d, x2 (ix2 m d) = ((a2 m d : ℝ) : EReal))
    (b : Fin 32) (c1 : Fin 64 → ℝ) (hc1 : ∀ m, Read.val_main_v6 (F := Ideal) x0 x2 (ix2 b m) = ((c1 m : ℝ) : EReal))
    (r : Fin 1024)
    (c2 : ℝ) (hc2 : Read.val_main_v20 (F := Ideal) x0 x1 x2 (ix2 b r) = ((c2 : ℝ) : EReal)) :
    Read.val_main_v31 (F := Ideal) x0 x1 x2 (ix2 b r) = ((PolyReal.rOut a2 (a0 b) c1 (a1 b r) c2 : ℝ) : EReal) := by
  rw [Read.val_main_v31_apply, Read.val_main_cst_5_apply, Ideal.ofBits_def, Ideal.ofBits_zero_f32, zero_add]
  unfold PolyReal.rOut
  refine Eq.trans ?_ (CoeLift.coe_sum _ _)
  refine Finset.sum_congr rfl fun d _ => ?_
  exact (congrArg _ (funext fun a => Fin.ext (by match a with | ⟨0, _⟩ => rfl | ⟨1, _⟩ => rfl | ⟨2, _⟩ => rfl))).trans (v30_apply x0 x1 x2 a0 a1 a2 h0 h1 h2 b c1 hc1 r c2 hc2 d)

/-- The reference's score at `(b, r)`, the inputs real: the real score `PolyReal.rOut` of the direct arrangement, for
    some real shifts (the two softmaxes' running maxima). -/
theorem ref_apply
    (x0 : FVec Ideal S32x512x768 .f32) (x1 : FVec Ideal S32x1024x768 .f32) (x2 : FVec Ideal S64x768 .f32)
    (a0 : Fin 32 → Fin 512 → Fin 768 → ℝ) (a1 : Fin 32 → Fin 1024 → Fin 768 → ℝ) (a2 : Fin 64 → Fin 768 → ℝ)
    (h0 : ∀ b s d, x0 (ix3 b s d) = ((a0 b s d : ℝ) : EReal))
    (h1 : ∀ b r d, x1 (ix3 b r d) = ((a1 b r d : ℝ) : EReal))
    (h2 : ∀ m d, x2 (ix2 m d) = ((a2 m d : ℝ) : EReal))
    (b : Fin 32) (r : Fin 1024) :
    ∃ (c1 : Fin 64 → ℝ) (c2 : ℝ),
      Cert.ReferenceIdeal.Read.val_main_v31 (F := Ideal) x0 x1 x2 (ix2 b r)
        = ((PolyReal.rOut a2 (a0 b) c1 (a1 b r) c2 : ℝ) : EReal) := by
  choose c1 hc1 using fun m => v6_real x0 x2 a0 a2 h0 h2 b m
  obtain ⟨c2, hc2⟩ := v20_real x0 x1 x2 a0 a1 a2 h0 h1 h2 b c1 hc1 r
  exact ⟨c1, c2, v31_apply x0 x1 x2 a0 a1 a2 h0 h1 h2 b c1 hc1 r c2 hc2⟩

end Cert.ReferenceIdeal.RefScore

end
-- ==== Proof.FiniteInputs.lean ====
import proofs.«111943_g12025908429422_cont_fleet_699_21_alg».proof.Pre_finite_inputs
import proofs.«111943_g12025908429422_cont_fleet_699_21_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

/-!
  The precondition "every float input is finite", read at the ideal instance.

  The printed predicate is, for each of the three argument arrays, the conjunction over all entries of
  `|x| < +∞`, and the three conjunctions joined by `and`. At the ideal instance an entry is an extended real,
  `|x|` is `max x (-x)`, and the comparison is the order of the extended reals. An extended real whose
  absolute value is below `⊤` is neither `⊤` nor `⊥` (the absolute value of each is `⊤`), so it is a real number.
-/

noncomputable section

open Idealize.ShloMosaic

namespace Cert.Proof.Finite

/-- The scalar shape has one index. -/
instance subsingleton_scalarIdx : Subsingleton Cert.Pre_finite_inputs.S_.Idx :=
  ⟨fun a b => funext fun d => d.elim0⟩

/-- The pattern `0x7F800000` of the 32-bit format denotes `+∞`. -/
theorem ofBits_inf : Ideal.ofBits .f32 0x7F800000#32 = (⊤ : EReal) := by
  simp [Ideal.ofBits, Ideal.ieee]

/-- An extended real whose absolute value `max x (-x)` is below `⊤` is a real number: the absolute value of
    `⊥` and of `⊤` is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One conjunction over all entries of `|x| < +∞` (a reduction by `and` over every axis, from the constant 1)
    that came out 1: every entry of the array is a real number. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (h : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) :
    ∀ i, ∃ r : ℝ, x i = (r : EReal) := by
  intro i
  have hi := Host.reduce_andi_all _ _ hr hu ValueIdx.ix0 h i
  refine real_of_abs_lt_top (x i) ?_
  have hc : Ideal.cmp .olt (max (x i) (-(x i))) (Ideal.ofBits .f32 0x7F800000#32) = 1#1 := hi
  rw [ofBits_inf] at hc
  by_contra hn
  simp [Ideal.cmp, hn] at hc

/-- The precondition at the ideal instance: every entry of the three argument arrays is a real number. -/
theorem real_of_pre [Cert.Pre_finite_inputs.Facts]
    (x0 : FVec Ideal Cert.Pre_finite_inputs.S32x512x768 .f32)
    (x1 : FVec Ideal Cert.Pre_finite_inputs.S32x1024x768 .f32)
    (x2 : FVec Ideal Cert.Pre_finite_inputs.S64x768 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧
      (∀ i, ∃ r : ℝ, x2 i = (r : EReal)) := by
  have h0 := congrFun h ValueIdx.ix0
  dsimp only [Cert.Pre_finite_inputs.fn, andi] at h0
  obtain ⟨h01, h2⟩ := IntOp.andi_eq_one.1 h0
  obtain ⟨h0', h1⟩ := IntOp.andi_eq_one.1 h01
  exact ⟨real_of_all _ _ _ x0 h0', real_of_all _ _ _ x1 h1, real_of_all _ _ _ x2 h2⟩

end Cert.Proof.Finite

end
-- ==== Proof.Bridge.lean ====
/-
  The two programs compute one array, on finite inputs.

  Under the precondition every entry of the three argument arrays is a real number. Then entry `(b, r)` of the
  kernel's result array is the deferred arrangement's real score of candidate `r` against batch element `b`'s context
  (for the real its running maximum is), and the same entry of the reference's last stage is the direct arrangement's
  real score (for the reals its two running maxima are). The two real scores agree whatever the shifts, because a
  softmax does not depend on its shift, a quotient by a positive sum moves across a finite sum, and
  `Σ_d (Σ_m p m · E m d) · cand d = Σ_m p m · (Σ_d cand d · E m d)`. Finiteness is what makes each of these laws
  available: on the extended reals they fail at the infinities.
-/
import proofs.«111943_g12025908429422_cont_fleet_699_21_alg».proof.Proof.KernelValue
import proofs.«111943_g12025908429422_cont_fleet_699_21_alg».proof.Proof.RefScore
import proofs.«111943_g12025908429422_cont_fleet_699_21_alg».proof.Proof.FiniteInputs

noncomputable section

namespace Cert.Proof.Bridge

open Idealize.ShloMosaic Idealize.ShloMosaic.ValueIdx

/-- On finite inputs the kernel's result array is the reference's last stage. -/
theorem result_eq [Cert.Pre_finite_inputs.Facts]
    (x0 : FVec Ideal Cert.KernelIdeal.S32x512x768 .f32) (x1 : FVec Ideal Cert.KernelIdeal.S32x1024x768 .f32)
    (x2 : FVec Ideal Cert.KernelIdeal.S64x768 .f32)
    (h : Cert.Pre_finite_inputs.fn (F := Ideal) x0 x1 x2 = fun _ => 1#1) :
    Cert.KernelIdeal.Score.resultArray x0 x1 x2 = Cert.ReferenceIdeal.Read.val_main_v31 (F := Ideal) x0 x1 x2 := by
  obtain ⟨f0, f1, f2⟩ := Cert.Proof.Finite.real_of_pre x0 x1 x2 h
  choose r0 hr0 using f0
  choose r1 hr1 using f1
  choose r2 hr2 using f2
  funext i
  obtain ⟨b, r, rfl⟩ : ∃ (b : Fin 32) (r : Fin 1024), i = ix2 b r := ⟨i 0, i 1, eq_ix2 i⟩
  obtain ⟨c3, hk⟩ := Cert.KernelIdeal.Score.resultArray_real x0 x1 x2
    (fun b s d => r0 (ix3 b s d)) (fun b r d => r1 (ix3 b r d)) (fun m d => r2 (ix2 m d))
    (fun b s d => hr0 (ix3 b s d)) (fun b r d => hr1 (ix3 b r d)) (fun m d => hr2 (ix2 m d)) b r
  obtain ⟨c1, c2, hrf⟩ := Cert.ReferenceIdeal.RefScore.ref_apply x0 x1 x2
    (fun b s d => r0 (ix3 b s d)) (fun b r d => r1 (ix3 b r d)) (fun m d => r2 (ix2 m d))
    (fun b s d => hr0 (ix3 b s d)) (fun b r d => hr1 (ix3 b r d)) (fun m d => hr2 (ix2 m d)) b r
  rw [hk, hrf, Cert.Proof.PolyReal.kOut_eq_rOut _ _ _ c1 c2 c3]

end Cert.Proof.Bridge

end
-- ==== Proof.lean ====
/-
  Poly-encoder retrieval scoring: a fused kernel against its two-softmax reference, equal on finite inputs.

  For each of 32 batch elements, 64 poly codes attend over 512 context token states (a softmax over the tokens of the
  codes' logits, then the weighted mean of the token states: 64 context embeddings); each of 1024 candidates then
  attends over those 64 embeddings (a softmax over the codes of the candidate's logits against them, then the weighted
  mean of the embeddings), and the candidate's score is its dot product with that mean.

  The kernel defers the first softmax's normalisation past two matrix products and takes no maximum there, and it
  never forms the candidate's mean embedding: the score is the softmax-weighted mean of the candidate's logits
  themselves. The reference normalises each max-shifted softmax before each product. On real numbers the two are one
  function (Proof/PolyReal.lean); on finite inputs every intermediate of both programs is a real number
  (Proof/KernelValue.lean, Proof/RefScore.lean, Proof/FiniteInputs.lean), so the precondition is used.

  The kernel program handles four batch elements per grid point and stores a [8, 4, 1024] array that @main reshapes to
  [32, 1024]; Proof/KernelRun.lean names that final array as one function of the three arguments. The frames of the
  two kernel programs are the generated ones; the reference's frame is its generated run with the result dropped; the
  idealization rewrote no operation, so the fourth conjunct is trivial.
-/
import proofs.«111943_g12025908429422_cont_fleet_699_21_alg».proof.Defs
import proofs.«111943_g12025908429422_cont_fleet_699_21_alg».proof.Proof.Gen.Kernel
import proofs.«111943_g12025908429422_cont_fleet_699_21_alg».proof.Proof.Gen.Kernel.Skeleton
import proofs.«111943_g12025908429422_cont_fleet_699_21_alg».proof.Proof.Gen.Kernel.Launch
import proofs.«111943_g12025908429422_cont_fleet_699_21_alg».proof.Proof.Gen.Kernel.Points
import proofs.«111943_g12025908429422_cont_fleet_699_21_alg».proof.Proof.Gen.Kernel.Frame
import proofs.«111943_g12025908429422_cont_fleet_699_21_alg».proof.Proof.Gen.KernelIdeal
import proofs.«111943_g12025908429422_cont_fleet_699_21_alg».proof.Proof.Gen.KernelIdeal.Skeleton
import proofs.«111943_g12025908429422_cont_fleet_699_21_alg».proof.Proof.Gen.KernelIdeal.Launch
import proofs.«111943_g12025908429422_cont_fleet_699_21_alg».proof.Proof.Gen.KernelIdeal.Points
import proofs.«111943_g12025908429422_cont_fleet_699_21_alg».proof.Proof.Gen.KernelIdeal.Frame
import proofs.«111943_g12025908429422_cont_fleet_699_21_alg».proof.Proof.Gen.ReferenceIdeal
import proofs.«111943_g12025908429422_cont_fleet_699_21_alg».proof.Proof.Gen.Pre_finite_inputs
import proofs.«111943_g12025908429422_cont_fleet_699_21_alg».proof.Proof.Gen.ReferenceIdeal.Run
import proofs.«111943_g12025908429422_cont_fleet_699_21_alg».proof.Proof.Gen.ReferenceIdeal.Read
import proofs.«111943_g12025908429422_cont_fleet_699_21_alg».proof.Proof.KernelRun
import proofs.«111943_g12025908429422_cont_fleet_699_21_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the kernel's result array, the function `Score.resultArray` of the three arguments: the
    kernel by its run, the reference because on finite inputs its last stage is that array. -/
theorem algebraic : Cert.algebraic_KernelIdeal_ReferenceIdeal := by
  intro m ρ m' ρ' hpre hagree
  refine ⟨_, Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2]
  exact (Cert.Proof.Bridge.result_eq _ _ _ (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
